-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S64x512 : Shape := ⟨2, ![64, 512]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S16x512x64x64 .f32) (main_arg1 : FVec F S64x512 .f32) (main_arg2 : FVec F S64x512 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S16x512x64x64 : Shape := ⟨4, ![16, 512, 64, 64]⟩
abbrev S64x512 : Shape := ⟨2, ![64, 512]⟩
abbrev S_ : Shape := ⟨0, ![]⟩
abbrev S64 : Shape := ⟨1, ![64]⟩
abbrev S64x1 : Shape := ⟨2, ![64, 1]⟩
abbrev S16x512x4096 : Shape := ⟨3, ![16, 512, 4096]⟩
abbrev S16x64x4096 : Shape := ⟨3, ![16, 64, 4096]⟩
abbrev S16x64x1 : Shape := ⟨3, ![16, 64, 1]⟩
abbrev S16x64x512 : Shape := ⟨3, ![16, 64, 512]⟩
abbrev S1x512x1024 : Shape := ⟨3, ![1, 512, 1024]⟩
abbrev S1x64x1024 : Shape := ⟨3, ![1, 64, 1024]⟩
abbrev S1x64x1 : Shape := ⟨3, ![1, 64, 1]⟩
abbrev S1x64x512 : Shape := ⟨3, ![1, 64, 512]⟩
abbrev S512x1024 : Shape := ⟨2, ![512, 1024]⟩
abbrev S64x1024 : Shape := ⟨2, ![64, 1024]⟩
abbrev S1024 : Shape := ⟨1, ![1024]⟩
abbrev S1x1024 : Shape := ⟨2, ![1, 1024]⟩
abbrev S16x64 : Shape := ⟨2, ![16, 64]⟩
abbrev S16x32768 : Shape := ⟨2, ![16, 32768]⟩
abbrev S16 : Shape := ⟨1, ![16]⟩
abbrev S16x1 : Shape := ⟨2, ![16, 1]⟩
abbrev S16x512x64 : Shape := ⟨3, ![16, 512, 64]⟩

abbrev nBuf : Space → Nat
  | .hbm => 59
  | .vmem => 11
  | .smem => 0
  | _ => 0

abbrev bufTy : (tb : Table) → Fin (tcTables nBuf tb) → BufTy
  | .hbm, ⟨0, _⟩ => ⟨S16x512x64x64, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S_, .f32⟩
  | .hbm, ⟨6, _⟩ => ⟨S64x512, .f32⟩
  | .hbm, ⟨7, _⟩ => ⟨S64x512, .f32⟩
  | .hbm, ⟨8, _⟩ => ⟨S_, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S64x512, .f32⟩
  | .hbm, ⟨16, _⟩ => ⟨S64x512, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S16x512x4096, .f32⟩
  | .hbm, ⟨21, _⟩ => ⟨S16x64x4096, .f32⟩
  | .hbm, ⟨22, _⟩ => ⟨S16x64x1, .f32⟩
  | .hbm, ⟨23, _⟩ => ⟨S16x64x512, .f32⟩
  | .hbm, ⟨24, _⟩ => ⟨S1x64x512, .f32⟩
  | .hbm, ⟨25, _⟩ => ⟨S16x64x512, .f32⟩
  | .hbm, ⟨26, _⟩ => ⟨S16x64x512, .f32⟩
  | .hbm, ⟨27, _⟩ => ⟨S16x64x512, .f32⟩
  | .hbm, ⟨28, _⟩ => ⟨S16x64x512, .f32⟩
  | .hbm, ⟨29, _⟩ => ⟨S1x64x512, .f32⟩
  | .hbm, ⟨30, _⟩ => ⟨S16x64x512, .f32⟩
  | .hbm, ⟨31, _⟩ => ⟨S16x64x512, .f32⟩
  | .hbm, ⟨32, _⟩ => ⟨S_, .f32⟩
  | .hbm, ⟨33, _⟩ => ⟨S16x64x1, .f32⟩
  | .hbm, ⟨34, _⟩ => ⟨S16x64x1, .f32⟩
  | .hbm, ⟨35, _⟩ => ⟨S16x64x512, .f32⟩
  | .hbm, ⟨36, _⟩ => ⟨S16x64x512, .f32⟩
  | .hbm, ⟨37, _⟩ => ⟨S16x64x512, .f32⟩
  | .hbm, ⟨38, _⟩ => ⟨S_, .f32⟩
  | .hbm, ⟨39, _⟩ => ⟨S16x64, .f32⟩
  | .hbm, ⟨40, _⟩ => ⟨S16x64x1, .f32⟩
  | .hbm, ⟨41, _⟩ => ⟨S16x64x1, .f32⟩
  | .hbm, ⟨42, _⟩ => ⟨S_, .f32⟩
  | .hbm, ⟨43, _⟩ => ⟨S16x64x1, .f32⟩
  | .hbm, ⟨44, _⟩ => ⟨S16x64x1, .f32⟩
  | .hbm, ⟨45, _⟩ => ⟨S16x64x512, .f32⟩
  | .hbm, ⟨46, _⟩ => ⟨S16x64x512, .f32⟩
  | .hbm, ⟨47, _⟩ => ⟨S16x32768, .f32⟩
  | .hbm, ⟨48, _⟩ => ⟨S16x32768, .f32⟩
  | .hbm, ⟨49, _⟩ => ⟨S_, .f32⟩
  | .hbm, ⟨50, _⟩ => ⟨S16, .f32⟩
  | .hbm, ⟨51, _⟩ => ⟨S16x1, .f32⟩
  | .hbm, ⟨52, _⟩ => ⟨S16x1, .f32⟩
  | .hbm, ⟨53, _⟩ => ⟨S_, .f32⟩
  | .hbm, ⟨54, _⟩ => ⟨S16x1, .f32⟩
  | .hbm, ⟨55, _⟩ => ⟨S16x1, .f32⟩
  | .hbm, ⟨56, _⟩ => ⟨S16x32768, .f32⟩
  | .hbm, ⟨57, _⟩ => ⟨S16x32768, .f32⟩
  | .hbm, ⟨58, _⟩ => ⟨S16x512x64, .f32⟩
  | .local _ .vmem, ⟨0, _⟩ => ⟨S1x512x1024, .f32⟩
  | .local _ .vmem, ⟨1, _⟩ => ⟨S1x512x1024, .f32⟩
  | .local _ .vmem, ⟨2, _⟩ => ⟨S64x512, .f32⟩
  | .local _ .vmem, ⟨3, _⟩ => ⟨S64x512, .f32⟩
  | .local _ .vmem, ⟨4, _⟩ => ⟨S64x1, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1, .f32⟩
  | .local _ .vmem, ⟨8, _⟩ => ⟨S1x64x1, .f32⟩
  | .local _ .vmem, ⟨9, _⟩ => ⟨S1x64x512, .f32⟩
  | .local _ .vmem, ⟨10, _⟩ => ⟨S1x64x512, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S64x512 : S_.BroadcastsInDim S64x512 (![] : Fin 0 → Fin S64x512.rank)
  reducesTo_S64x512_S64_d1 : S64x512.ReducesTo [1] S64
  h_S_ : 0 < S_.numel
  shapeCasts_S64_S64x1 : S64.ShapeCasts S64x1
  shapeCasts_S16x512x64x64_S16x512x4096 : S16x512x64x64.ShapeCasts S16x512x4096
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  reduces_S64x1024_S64 : S64x1024.Reduces [1] S64
  bcast_S64x512_S1x64x512_1_2 : S64x512.BroadcastsInDim S1x64x512 (![1, 2] : Fin 2 → Fin S1x64x512.rank)
  bcast_S16x64x1_S16x64x512_0_1_2 : S16x64x1.BroadcastsInDim S16x64x512 (![0, 1, 2] : Fin 3 → Fin S16x64x512.rank)
  bcast_S1x64x512_S16x64x512_0_1_2 : S1x64x512.BroadcastsInDim S16x64x512 (![0, 1, 2] : Fin 3 → Fin S16x64x512.rank)
  bcast_S_S16x64x1 : S_.BroadcastsInDim S16x64x1 (![] : Fin 0 → Fin S16x64x1.rank)
  reducesTo_S16x64x512_S16x64_d2 : S16x64x512.ReducesTo [2] S16x64
  bcast_S16x64_S16x64x1_0_1 : S16x64.BroadcastsInDim S16x64x1 (![0, 1] : Fin 2 → Fin S16x64x1.rank)
  shapeCasts_S16x64x512_S16x32768 : S16x64x512.ShapeCasts S16x32768
  reducesTo_S16x32768_S16_d1 : S16x32768.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x32768_0_1 : S16x1.BroadcastsInDim S16x32768 (![0, 1] : Fin 2 → Fin S16x32768.rank)
  shapeCasts_S16x32768_S16x512x64 : S16x32768.ShapeCasts S16x512x64
  dot_S64x512_S512x1024_S64x1024_1_0_0_1_n_n_wf : DotDims.WF S64x512 S512x1024 S64x1024 [1] [0] [0] [1] [] []
  dot_S64x1024_S512x1024_S64x512_1_1_0_0_n_n_wf : DotDims.WF S64x1024 S512x1024 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x4096.size a
  hwx0_0 : ∀ i : grid0.Coords, EltTy.bits .f32 = 32 ∨ (Rect.block (s := S16x512x4096) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S16x64x4096.size a
  hwx0_4 : ∀ i : grid0.Coords, EltTy.bits .f32 = 32 ∨ (Rect.block (s := S16x64x4096) S1x64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S16x64x1.size a
  hwx0_5 : ∀ i : grid0.Coords, EltTy.bits .f32 = 32 ∨ (Rect.block (s := S16x64x1) S1x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512.size a ≤ S16x64x512.size a
  hwx0_6 : ∀ i : grid0.Coords, EltTy.bits .f32 = 32 ∨ (Rect.block (s := S16x64x512) S1x64x512.size (cc0_transform_6 i) (hinb0_6 i)).WholeWords (EltTy.packing .f32)

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpec (Memref.whole main_v13) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1x64x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1x64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S1x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S64x512 : Shape := ⟨2, ![64, 512]⟩
abbrev S_ : Shape := ⟨0, ![]⟩
abbrev S16x512x4096 : Shape := ⟨3, ![16, 512, 4096]⟩
abbrev S16x4096x512 : Shape := ⟨3, ![16, 4096, 512]⟩
abbrev S64 : Shape := ⟨1, ![64]⟩
abbrev S16x4096x64 : Shape := ⟨3, ![16, 4096, 64]⟩
abbrev S1x1x64 : Shape := ⟨3, ![1, 1, 64]⟩
abbrev S16x64x4096 : Shape := ⟨3, ![16, 64, 4096]⟩
abbrev S16x4096 : Shape := ⟨2, ![16, 4096]⟩
abbrev S16x1x4096 : Shape := ⟨3, ![16, 1, 4096]⟩
abbrev S16x64 : Shape := ⟨2, ![16, 64]⟩
abbrev S16x64x512 : Shape := ⟨3, ![16, 64, 512]⟩
abbrev S16x64x1 : Shape := ⟨3, ![16, 64, 1]⟩
abbrev S1x64x512 : Shape := ⟨3, ![1, 64, 512]⟩
abbrev S16x32768 : Shape := ⟨2, ![16, 32768]⟩
abbrev S16 : Shape := ⟨1, ![16]⟩
abbrev S16x1 : Shape := ⟨2, ![16, 1]⟩
abbrev S16x512x64 : Shape := ⟨3, ![16, 512, 64]⟩

abbrev nBuf : Space → Nat
  | .hbm => 89
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S_, .f32⟩
  | .hbm, ⟨6, _⟩ => ⟨S64x512, .f32⟩
  | .hbm, ⟨7, _⟩ => ⟨S64x512, .f32⟩
  | .hbm, ⟨8, _⟩ => ⟨S_, .f32⟩
  | .hbm, ⟨9, _⟩ => ⟨S64x512, .f32⟩
  | .hbm, ⟨10, _⟩ => ⟨S64x512, .f32⟩
  | .hbm, ⟨11, _⟩ => ⟨S16x512x4096, .f32⟩
  | .hbm, ⟨12, _⟩ => ⟨S16x4096x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S64x512, .f32⟩
  | .hbm, ⟨19, _⟩ => ⟨S_, .f32⟩
  | .hbm, ⟨20, _⟩ => ⟨S64, .f32⟩
  | .hbm, ⟨21, _⟩ => ⟨S16x4096x512, .f32⟩
  | .hbm, ⟨22, _⟩ => ⟨S16x4096x64, .f32⟩
  | .hbm, ⟨23, _⟩ => ⟨S16x4096x64, .f32⟩
  | .hbm, ⟨24, _⟩ => ⟨S_, .f32⟩
  | .hbm, ⟨25, _⟩ => ⟨S16x4096x64, .f32⟩
  | .hbm, ⟨26, _⟩ => ⟨S16x4096x64, .f32⟩
  | .hbm, ⟨27, _⟩ => ⟨S16x4096x64, .f32⟩
  | .hbm, ⟨28, _⟩ => ⟨S1x1x64, .f32⟩
  | .hbm, ⟨29, _⟩ => ⟨S16x4096x64, .f32⟩
  | .hbm, ⟨30, _⟩ => ⟨S16x4096x64, .f32⟩
  | .hbm, ⟨31, _⟩ => ⟨S_, .f32⟩
  | .hbm, ⟨32, _⟩ => ⟨S16x4096x64, .f32⟩
  | .hbm, ⟨33, _⟩ => ⟨S16x4096x64, .f32⟩
  | .hbm, ⟨34, _⟩ => ⟨S16x64x4096, .f32⟩
  | .hbm, ⟨35, _⟩ => ⟨S_, .f32⟩
  | .hbm, ⟨36, _⟩ => ⟨S16x4096, .f32⟩
  | .hbm, ⟨37, _⟩ => ⟨S_, .f32⟩
  | .hbm, ⟨38, _⟩ => ⟨S16x4096, .f32⟩
  | .hbm, ⟨39, _⟩ => ⟨S16x4096, .f32⟩
  | .hbm, ⟨40, _⟩ => ⟨S16x1x4096, .f32⟩
  | .hbm, ⟨41, _⟩ => ⟨S16x64x4096, .f32⟩
  | .hbm, ⟨42, _⟩ => ⟨S16x64x4096, .f32⟩
  | .hbm, ⟨43, _⟩ => ⟨S16x64x4096, .f32⟩
  | .hbm, ⟨44, _⟩ => ⟨S_, .f32⟩
  | .hbm, ⟨45, _⟩ => ⟨S16x4096, .f32⟩
  | .hbm, ⟨46, _⟩ => ⟨S16x1x4096, .f32⟩
  | .hbm, ⟨47, _⟩ => ⟨S16x64x4096, .f32⟩
  | .hbm, ⟨48, _⟩ => ⟨S16x64x4096, .f32⟩
  | .hbm, ⟨49, _⟩ => ⟨S_, .f32⟩
  | .hbm, ⟨50, _⟩ => ⟨S16x64, .f32⟩
  | .hbm, ⟨51, _⟩ => ⟨S16x64x512, .f32⟩
  | .hbm, ⟨52, _⟩ => ⟨S16x64x1, .f32⟩
  | .hbm, ⟨53, _⟩ => ⟨S1x64x512, .f32⟩
  | .hbm, ⟨54, _⟩ => ⟨S16x64x512, .f32⟩
  | .hbm, ⟨55, _⟩ => ⟨S16x64x512, .f32⟩
  | .hbm, ⟨56, _⟩ => ⟨S16x64x512, .f32⟩
  | .hbm, ⟨57, _⟩ => ⟨S16x64x512, .f32⟩
  | .hbm, ⟨58, _⟩ => ⟨S1x64x512, .f32⟩
  | .hbm, ⟨59, _⟩ => ⟨S16x64x512, .f32⟩
  | .hbm, ⟨60, _⟩ => ⟨S16x64x512, .f32⟩
  | .hbm, ⟨61, _⟩ => ⟨S16x64x1, .f32⟩
  | .hbm, ⟨62, _⟩ => ⟨S_, .f32⟩
  | .hbm, ⟨63, _⟩ => ⟨S16x64x1, .f32⟩
  | .hbm, ⟨64, _⟩ => ⟨S16x64x1, .f32⟩
  | .hbm, ⟨65, _⟩ => ⟨S16x64x512, .f32⟩
  | .hbm, ⟨66, _⟩ => ⟨S16x64x512, .f32⟩
  | .hbm, ⟨67, _⟩ => ⟨S16x64x512, .f32⟩
  | .hbm, ⟨68, _⟩ => ⟨S_, .f32⟩
  | .hbm, ⟨69, _⟩ => ⟨S16x64, .f32⟩
  | .hbm, ⟨70, _⟩ => ⟨S16x64x1, .f32⟩
  | .hbm, ⟨71, _⟩ => ⟨S16x64x1, .f32⟩
  | .hbm, ⟨72, _⟩ => ⟨S_, .f32⟩
  | .hbm, ⟨73, _⟩ => ⟨S16x64x1, .f32⟩
  | .hbm, ⟨74, _⟩ => ⟨S16x64x1, .f32⟩
  | .hbm, ⟨75, _⟩ => ⟨S16x64x512, .f32⟩
  | .hbm, ⟨76, _⟩ => ⟨S16x64x512, .f32⟩
  | .hbm, ⟨77, _⟩ => ⟨S16x32768, .f32⟩
  | .hbm, ⟨78, _⟩ => ⟨S16x32768, .f32⟩
  | .hbm, ⟨79, _⟩ => ⟨S_, .f32⟩
  | .hbm, ⟨80, _⟩ => ⟨S16, .f32⟩
  | .hbm, ⟨81, _⟩ => ⟨S16x1, .f32⟩
  | .hbm, ⟨82, _⟩ => ⟨S16x1, .f32⟩
  | .hbm, ⟨83, _⟩ => ⟨S_, .f32⟩
  | .hbm, ⟨84, _⟩ => ⟨S16x1, .f32⟩
  | .hbm, ⟨85, _⟩ => ⟨S16x1, .f32⟩
  | .hbm, ⟨86, _⟩ => ⟨S16x32768, .f32⟩
  | .hbm, ⟨87, _⟩ => ⟨S16x32768, .f32⟩
  | .hbm, ⟨88, _⟩ => ⟨S16x512x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call0_v0 : Ref sig .tc := ⟨.hbm, 67, rfl⟩
abbrev main_call0_cst : Ref sig .tc := ⟨.hbm, 68, rfl⟩
abbrev main_call0_v1 : Ref sig .tc := ⟨.hbm, 69, rfl⟩
abbrev main_call0_v2 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call1_v0 : Ref sig .tc := ⟨.hbm, 78, rfl⟩
abbrev main_call1_cst : Ref sig .tc := ⟨.hbm, 79, rfl⟩
abbrev main_call1_v1 : Ref sig .tc := ⟨.hbm, 80, rfl⟩
abbrev main_call1_v2 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  shapeCasts_S16x512x64x64_S16x512x4096 : S16x512x64x64.ShapeCasts S16x512x4096
  transposes_S16x512x4096_S16x4096x512_0_2_1 : S16x512x4096.Transposes [0, 2, 1] S16x4096x512
  reducesTo_S64x512_S64_d1 : S64x512.ReducesTo [1] S64
  h_S_ : 0 < S_.numel
  bcast_S_S16x4096x64 : S_.BroadcastsInDim S16x4096x64 (![] : Fin 0 → Fin S16x4096x64.rank)
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  transposes_S16x4096x64_S16x64x4096_0_2_1 : S16x4096x64.Transposes [0, 2, 1] S16x64x4096
  reducesTo_S16x64x4096_S16x4096_d1 : S16x64x4096.ReducesTo [1] S16x4096
  bcast_S_S16x4096 : S_.BroadcastsInDim S16x4096 (![] : Fin 0 → Fin S16x4096.rank)
  bcast_S16x4096_S16x1x4096_0_2 : S16x4096.BroadcastsInDim S16x1x4096 (![0, 2] : Fin 2 → Fin S16x1x4096.rank)
  bcast_S16x1x4096_S16x64x4096_0_1_2 : S16x1x4096.BroadcastsInDim S16x64x4096 (![0, 1, 2] : Fin 3 → Fin S16x64x4096.rank)
  reducesTo_S16x64x4096_S16x64_d2 : S16x64x4096.ReducesTo [2] S16x64
  bcast_S16x64_S16x64x1_0_1 : S16x64.BroadcastsInDim S16x64x1 (![0, 1] : Fin 2 → Fin S16x64x1.rank)
  bcast_S64x512_S1x64x512_1_2 : S64x512.BroadcastsInDim S1x64x512 (![1, 2] : Fin 2 → Fin S1x64x512.rank)
  bcast_S16x64x1_S16x64x512_0_1_2 : S16x64x1.BroadcastsInDim S16x64x512 (![0, 1, 2] : Fin 3 → Fin S16x64x512.rank)
  bcast_S1x64x512_S16x64x512_0_1_2 : S1x64x512.BroadcastsInDim S16x64x512 (![0, 1, 2] : Fin 3 → Fin S16x64x512.rank)
  bcast_S_S16x64x1 : S_.BroadcastsInDim S16x64x1 (![] : Fin 0 → Fin S16x64x1.rank)
  reducesTo_S16x64x512_S16x64_d2 : S16x64x512.ReducesTo [2] S16x64
  shapeCasts_S16x64x512_S16x32768 : S16x64x512.ShapeCasts S16x32768
  reducesTo_S16x32768_S16_d1 : S16x32768.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x32768_0_1 : S16x1.BroadcastsInDim S16x32768 (![0, 1] : Fin 2 → Fin S16x32768.rank)
  shapeCasts_S16x32768_S16x512x64 : S16x32768.ShapeCasts S16x512x64
  dot_S16x4096x512_S64x512_S16x4096x64_2_1_01_0_n_n_wf : DotDims.WF S16x4096x512 S64x512 S16x4096x64 [2] [1] [0, 1] [0] [] []
  dot_S16x64x4096_S16x4096x512_S16x64x512_2_1_1_2_0_0_wf : DotDims.WF S16x64x4096 S16x4096x512 S16x64x512 [2] [1] [1] [2] [0] [0]

variable [Facts₀]

def dot_S16x4096x512_S64x512_S16x4096x64_2_1_01_0_n_n : DotDims S16x4096x512 S64x512 S16x4096x64 where
  lhsContracting := [2]
  rhsContracting := [1]
  lhsNonContracting := [0, 1]
  rhsNonContracting := [0]
  lhsBatch := []
  rhsBatch := []
  wf := dot_S16x4096x512_S64x512_S16x4096x64_2_1_01_0_n_n_wf
def dot_S16x64x4096_S16x4096x512_S16x64x512_2_1_1_2_0_0 : DotDims S16x64x4096 S16x4096x512 S16x64x512 where
  lhsContracting := [2]
  rhsContracting := [1]
  lhsNonContracting := [1]
  rhsNonContracting := [2]
  lhsBatch := [0]
  rhsBatch := [0]
  wf := dot_S16x64x4096_S16x4096x512_S16x64x512_2_1_1_2_0_0_wf

class Facts : Prop extends Facts₀ where

variable [Facts]
-- ==== Proof.KernelPieces.lean ====
/-
  What one run of the kernel body leaves in each output's staging buffer, as values (at any float instance).

  The body stores the soft-assignment tile once, covering its whole buffer, so that buffer ends holding the tile. The
  two running totals are stored once each, covering their buffers, from what the buffers held before: at an image's
  first tile the body first overwrites both with zeros and then reads those zeros back, so the totals start from
  zero; at a later tile they start from what the tile before left. In both cases each buffer's final contents are the
  last covering store's value, with every load in it read at the contents the buffer is known to hold.
-/
import proofs.«132507_j7902739825285_1_alg».proof.Proof.Gen.KernelIdeal.Frame
import Idealize.ShloMosaic.Lib.Pipeline.Value
import Idealize.ShloMosaic.Lib.Tactic

set_option maxRecDepth 16384

noncomputable section
namespace Cert.KernelIdeal.Pieces
open Idealize.ShloMosaic Idealize.ShloMosaic.TcCoe Idealize.ShloMosaic.Tactic Idealize.SL.Sem
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 2000000 in
theorem out_A_4 (c : Dev nD) (i : grid0.Coords) (arg2 : Memref sig .tc .vmem S1x512x1024 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x1 .f32) (harg5 : arg5.IsWhole) (arg6 : Memref sig .tc .vmem S1x64x1024 .f32) (harg6 : arg6.IsWhole) (arg7 : Memref sig .tc .vmem S1x64x1 .f32) (harg7 : arg7.IsWhole) (arg8 : Memref sig .tc .vmem S1x64x512 .f32) (harg8 : arg8.IsWhole) (hc0 : cond0_0 i)
    (x0 : Vec F S1x512x1024 .f32) (x1 : Vec F S64x512 .f32) (x2 : Vec F S64x512 .f32) (x3 : Vec F S64x1 .f32) :
    out0_A_4 c i arg2 harg2 arg3 harg3 arg4 harg4 arg5 harg5 arg6 harg6 arg7 harg7 arg8 harg8 hc0 x0 x1 x2 x3 = k0_pay8 x0 x1 x2 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x512x1024) hz3, View.ld_unit_zero (S := S64x512) hz2, View.ld_unit_zero (S := S64x1) hz2, View.ld_unit_zero (S := S1x64x1) hz3, View.ld_unit_zero (S := S1x64x512) hz3, View.ld_unit_zero (S := S1x64x1024) hz3]

set_option maxHeartbeats 2000000 in
theorem out_A_5 (c : Dev nD) (i : grid0.Coords) (arg2 : Memref sig .tc .vmem S1x512x1024 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x1 .f32) (harg5 : arg5.IsWhole) (arg6 : Memref sig .tc .vmem S1x64x1024 .f32) (harg6 : arg6.IsWhole) (arg7 : Memref sig .tc .vmem S1x64x1 .f32) (harg7 : arg7.IsWhole) (arg8 : Memref sig .tc .vmem S1x64x512 .f32) (harg8 : arg8.IsWhole) (hc0 : cond0_0 i)
    (x0 : Vec F S1x512x1024 .f32) (x1 : Vec F S64x512 .f32) (x2 : Vec F S64x512 .f32) (x3 : Vec F S64x1 .f32) :
    out0_A_5 c i arg2 harg2 arg3 harg3 arg4 harg4 arg5 harg5 arg6 harg6 arg7 harg7 arg8 harg8 hc0 x0 x1 x2 x3 = k0_pay3 (k0_pay7 x0 x1 x2 x3) (k0_pay1 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread, harg6.read_unread, harg7.read_unread, harg8.read_unread, View.ld_unit_zero (S := S1x512x1024) hz3, View.ld_unit_zero (S := S64x512) hz2, View.ld_unit_zero (S := S64x1) hz2, View.ld_unit_zero (S := S1x64x1) hz3, View.ld_unit_zero (S := S1x64x512) hz3, View.ld_unit_zero (S := S1x64x1024) hz3]

set_option maxHeartbeats 2000000 in
theorem out_A_6 (c : Dev nD) (i : grid0.Coords) (arg2 : Memref sig .tc .vmem S1x512x1024 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x1 .f32) (harg5 : arg5.IsWhole) (arg6 : Memref sig .tc .vmem S1x64x1024 .f32) (harg6 : arg6.IsWhole) (arg7 : Memref sig .tc .vmem S1x64x1 .f32) (harg7 : arg7.IsWhole) (arg8 : Memref sig .tc .vmem S1x64x512 .f32) (harg8 : arg8.IsWhole) (hc0 : cond0_0 i)
    (x0 : Vec F S1x512x1024 .f32) (x1 : Vec F S64x512 .f32) (x2 : Vec F S64x512 .f32) (x3 : Vec F S64x1 .f32) :
    out0_A_6 c i arg2 harg2 arg3 harg3 arg4 harg4 arg5 harg5 arg6 harg6 arg7 harg7 arg8 harg8 hc0 x0 x1 x2 x3 = k0_pay4 (k0_pay6 x0) (k0_pay7 x0 x1 x2 x3) (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x64x512) hz3, View.readCov_unit_zero (S := S1x64x512) _ hz3]
  simp only [View.readAt_eq_ld, harg2.read_unread, harg3.read_unread, harg4.read_unread, harg5.read_unread, harg6.read_unread, harg7.read_unread, harg8.read_unread, View.ld_unit_zero (S := S1x512x1024) hz3, View.ld_unit_zero (S := S64x512) hz2, View.ld_unit_zero (S := S64x1) hz2, View.ld_unit_zero (S := S1x64x1) hz3, View.ld_unit_zero (S := S1x64x512) hz3, View.ld_unit_zero (S := S1x64x1024) hz3]

set_option maxHeartbeats 2000000 in
theorem out_B_4 (c : Dev nD) (i : grid0.Coords) (arg2 : Memref sig .tc .vmem S1x512x1024 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x1 .f32) (harg5 : arg5.IsWhole) (arg6 : Memref sig .tc .vmem S1x64x1024 .f32) (harg6 : arg6.IsWhole) (arg7 : Memref sig .tc .vmem S1x64x1 .f32) (harg7 : arg7.IsWhole) (arg8 : Memref sig .tc .vmem S1x64x512 .f32) (harg8 : arg8.IsWhole) (hc0 : ¬cond0_0 i)
    (x0 : Vec F S1x512x1024 .f32) (x1 : Vec F S64x512 .f32) (x2 : Vec F S64x512 .f32) (x3 : Vec F S64x1 .f32) (xo5 : Vec F S1x64x1 .f32) (xo6 : Vec F S1x64x512 .f32) :
    out0_B_4 c i arg2 harg2 arg3 harg3 arg4 harg4 arg5 harg5 arg6 harg6 arg7 harg7 arg8 harg8 hc0 x0 x1 x2 x3 xo5 xo6 = k0_pay8 x0 x1 x2 x3 := by
  unfold out0_B_4
  rw [View.read_writes_eq_canon _ _ _ (cover0_B_4 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x512x1024) hz3, View.ld_unit_zero (S := S64x512) hz2, View.ld_unit_zero (S := S64x1) hz2, View.ld_unit_zero (S := S1x64x1) hz3, View.ld_unit_zero (S := S1x64x512) hz3, View.ld_unit_zero (S := S1x64x1024) hz3]

set_option maxHeartbeats 2000000 in
theorem out_B_5 (c : Dev nD) (i : grid0.Coords) (arg2 : Memref sig .tc .vmem S1x512x1024 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x1 .f32) (harg5 : arg5.IsWhole) (arg6 : Memref sig .tc .vmem S1x64x1024 .f32) (harg6 : arg6.IsWhole) (arg7 : Memref sig .tc .vmem S1x64x1 .f32) (harg7 : arg7.IsWhole) (arg8 : Memref sig .tc .vmem S1x64x512 .f32) (harg8 : arg8.IsWhole) (hc0 : ¬cond0_0 i)
    (x0 : Vec F S1x512x1024 .f32) (x1 : Vec F S64x512 .f32) (x2 : Vec F S64x512 .f32) (x3 : Vec F S64x1 .f32) (xo5 : Vec F S1x64x1 .f32) (xo6 : Vec F S1x64x512 .f32) :
    out0_B_5 c i arg2 harg2 arg3 harg3 arg4 harg4 arg5 harg5 arg6 harg6 arg7 harg7 arg8 harg8 hc0 x0 x1 x2 x3 xo5 xo6 = k0_pay3 (k0_pay7 x0 x1 x2 x3) xo5 := by
  unfold out0_B_5
  rw [View.read_writes_eq_canon _ _ _ (cover0_B_5 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x512x1024) hz3, View.ld_unit_zero (S := S64x512) hz2, View.ld_unit_zero (S := S64x1) hz2, View.ld_unit_zero (S := S1x64x1) hz3, View.ld_unit_zero (S := S1x64x512) hz3, View.ld_unit_zero (S := S1x64x1024) hz3]

set_option maxHeartbeats 2000000 in
theorem out_B_6 (c : Dev nD) (i : grid0.Coords) (arg2 : Memref sig .tc .vmem S1x512x1024 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x1 .f32) (harg5 : arg5.IsWhole) (arg6 : Memref sig .tc .vmem S1x64x1024 .f32) (harg6 : arg6.IsWhole) (arg7 : Memref sig .tc .vmem S1x64x1 .f32) (harg7 : arg7.IsWhole) (arg8 : Memref sig .tc .vmem S1x64x512 .f32) (harg8 : arg8.IsWhole) (hc0 : ¬cond0_0 i)
    (x0 : Vec F S1x512x1024 .f32) (x1 : Vec F S64x512 .f32) (x2 : Vec F S64x512 .f32) (x3 : Vec F S64x1 .f32) (xo5 : Vec F S1x64x1 .f32) (xo6 : Vec F S1x64x512 .f32) :
    out0_B_6 c i arg2 harg2 arg3 harg3 arg4 harg4 arg5 harg5 arg6 harg6 arg7 harg7 arg8 harg8 hc0 x0 x1 x2 x3 xo5 xo6 = k0_pay4 (k0_pay6 x0) (k0_pay7 x0 x1 x2 x3) xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x512x1024) hz3, View.ld_unit_zero (S := S64x512) hz2, View.ld_unit_zero (S := S64x1) hz2, View.ld_unit_zero (S := S1x64x1) hz3, View.ld_unit_zero (S := S1x64x512) hz3, View.ld_unit_zero (S := S1x64x1024) hz3]

end Cert.KernelIdeal.Pieces
end
-- ==== Proof.Spec.lean ====
/-
  The mathematics both programs compute, stated once over the extended reals.

  A COLUMN is one spatial position of one image: its 512 channel values `xc`. With the per-node inverse variances
  `w k c = 1/σ²`, the scaled anchors `a k c = anchor/σ²` and the per-node constants `cst k = Σ_c anchor²/σ²`,
  node `k`'s logit at the column is `-½ · (Σ_c w k c · xc c² − 2 · Σ_c a k c · xc c + cst k)`, and the soft assignment
  is the softmax of the 64 logits, taken as `exp (l − max) / Σ exp (l − max)`, the maximum folded from `−∞`.

  The two aggregates of an image sum a function of the column over its 4096 columns. One program adds them all at
  once; the other adds 1024 at a time onto a running total that starts at zero. `seqOf`, `part_zero`, `part_succ`
  and `part_full` say that the running total after `j + 1` groups is the sum of the first `1024 · (j + 1)` terms,
  and that after four groups it is the whole sum: addition of extended reals is associative and commutative, which
  is all this needs (no finiteness).
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- Node `k`'s logit at a column. -/
def logit (xc : Fin 512 → EReal) (w a : (⟨2, ![64, 512]⟩ : Shape).Idx → EReal) (cst : Fin 64 → EReal) (k : Fin 64) : EReal :=
  Ideal.ofBits .f32 0xBF000000#32 *
    ((∑ c : Fin 512, w (ix2 k c) * (xc c * xc c)) - Ideal.ofBits .f32 0x40000000#32 * (∑ c : Fin 512, a (ix2 k c) * xc c) + cst k)

/-- The largest of a column's 64 logits, folded from `−∞`. -/
def colmax (xc : Fin 512 → EReal) (w a : (⟨2, ![64, 512]⟩ : Shape).Idx → EReal) (cst : Fin 64 → EReal) : EReal :=
  (Finset.univ : Finset (Fin 64)).fold max (Ideal.ofBits .f32 0xFF800000#32) (logit xc w a cst)

/-- The soft assignment of a column to node `k`: the softmax over the nodes. -/
def softcol (xc : Fin 512 → EReal) (w a : (⟨2, ![64, 512]⟩ : Shape).Idx → EReal) (cst : Fin 64 → EReal) (k : Fin 64) : EReal :=
  Ideal.div (Ideal.exp (logit xc w a cst k - colmax xc w a cst))
    (∑ k' : Fin 64, Ideal.exp (logit xc w a cst k' - colmax xc w a cst))

/-- The fold starts at `−∞`, so it is at least `−∞`: taking the maximum with `−∞` once more changes nothing. -/
theorem max_colmax (xc : Fin 512 → EReal) (w a : (⟨2, ![64, 512]⟩ : Shape).Idx → EReal) (cst : Fin 64 → EReal) :
    max (Ideal.ofBits .f32 0xFF800000#32) (colmax xc w a cst) = colmax xc w a cst :=
  max_eq_right ((Finset.le_fold_max _).mpr (Or.inl le_rfl))

/-- A function of the 4096 columns as a sequence, zero past the end. -/
def seqOf (f : Fin 4096 → EReal) (n : ℕ) : EReal := if h : n < 4096 then f ⟨n, h⟩ else 0

theorem seqOf_lt (f : Fin 4096 → EReal) (n : ℕ) (h : n < 4096) : seqOf f n = f ⟨n, h⟩ := dif_pos h

/-- The first group onto a zero total. -/
theorem part_zero (f : Fin 4096 → EReal) (z S : EReal) (hz : z = 0) (hS : S = ∑ i : Fin 1024, seqOf f (1024 * 0 + i.val)) :
    z + S = ∑ n ∈ Finset.range (1024 * (0 + 1)), seqOf f n := by
  rw [hz, zero_add, hS, Finset.sum_range]
  exact Finset.sum_congr rfl fun i _ => by rw [Nat.mul_zero, Nat.zero_add]

/-- One more group onto the running total. -/
theorem part_succ (f : Fin 4096 → EReal) (j : ℕ) (acc S : EReal)
    (hacc : acc = ∑ n ∈ Finset.range (1024 * (j + 1)), seqOf f n)
    (hS : S = ∑ i : Fin 1024, seqOf f (1024 * (j + 1) + i.val)) :
    acc + S = ∑ n ∈ Finset.range (1024 * (j + 1 + 1)), seqOf f n := by
  rw [show 1024 * (j + 1 + 1) = 1024 * (j + 1) + 1024 by ring, Finset.sum_range_add, hacc, hS, Finset.sum_range (fun x => seqOf f (1024 * (j + 1) + x))]

/-- Four groups are all the columns. -/
theorem part_full (f : Fin 4096 → EReal) : ∑ n ∈ Finset.range (1024 * (3 + 1)), seqOf f n = ∑ n : Fin 4096, f n := by
  rw [show 1024 * (3 + 1) = 4096 by norm_num, Finset.sum_range]
  exact Finset.sum_congr rfl fun n _ => seqOf_lt f n.val n.isLt

end Cert.Pool

end
-- ==== Proof.KernelPay.lean ====
/-
  The idealized kernel's arithmetic at one grid point, read entry by entry over the extended reals.

  One point holds a [512, 1024] tile `x` of an image (channels × columns) and the whole [64, 512] arrays `w`, `a` and the
  [64, 1] column `cst`. Its soft-assignment tile is, at node `k` and column `i`, the softmax over the nodes of the logits of
  column `i` (`Cert.Pool.softcol`): the two matrix products into a zero accumulator are plain sums over the 512
  channels, the column maximum is a fold of `max` from `−∞`, the normalizer a sum over the 64 nodes. The two running
  totals it leaves are the previous totals plus, for the weights, the sum of the tile's soft assignments over its 1024
  columns, and for the weighted sums, the product of the soft assignments with the tile transposed — again a sum over the
  1024 columns. Changes of float format are the identity here, and a shape cast that adds or drops a unit axis
  re-reads the same entries.
-/
import proofs.«132507_j7902739825285_1_alg».proof.Proof.Gen.KernelIdeal.Skeleton
import proofs.«132507_j7902739825285_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Pool

/-- The product [64,512] · [512,1024]: contracts the left's axis 1 with the right's axis 0. -/
abbrev Dkc := dot_S64x512_S512x1024_S64x1024_1_0_0_1_n_n
/-- The product [64,1024] · [512,1024]ᵀ: contracts both operands' axis 1. -/
abbrev Dkn := dot_S64x1024_S512x1024_S64x512_1_1_0_0_n_n

/-! ## The two matrix products as sums -/

theorem lhsKc0 (j : S64x1024.Idx) (q : Dkc.contr.Idx) : (Dkc.lhsIdx j q 0).val = (j 0).val := by
  unfold DotDims.lhsIdx
  rw [dif_neg (show ¬(0 : Fin S64x512.rank) ∈ Dkc.lhsBatch by decide), dif_pos (show (0 : Fin S64x512.rank) ∈ Dkc.lhsNonContracting by decide)]
  rfl

theorem rhsKc1 (j : S64x1024.Idx) (q : Dkc.contr.Idx) : (Dkc.rhsIdx j q 1).val = (j 1).val := by
  unfold DotDims.rhsIdx
  rw [dif_neg (show ¬(1 : Fin S512x1024.rank) ∈ Dkc.rhsBatch by decide), dif_pos (show (1 : Fin S512x1024.rank) ∈ Dkc.rhsNonContracting by decide)]
  rfl

/-- Entry (k, i) of `L · R` into a zero accumulator: the sum over the 512 channels. -/
theorem mm_kc (L : FVec Ideal S64x512 .bf16) (R : FVec Ideal S512x1024 .bf16) (k : Fin 64) (i : Fin 1024) :
    matmul Dkc none L R (constant (F := Ideal) S64x1024 .f32 0x00000000#32) (ix2 k i) = ∑ c : Fin 512, L (ix2 k c) * R (ix2 c i) := by
  refine (Ideal.matmul_constant_zero_apply Dkc none L R (ix2 k i)).trans ?_
  rw [← Equiv.sum_comp (contrEquiv1 Dkc 512 rfl rfl).symm]
  refine Finset.sum_congr rfl fun c _ => ?_
  have hk := contrEquiv1_symm_val Dkc 512 rfl rfl c
  have el : Dkc.lhsIdx (ix2 k i) ((contrEquiv1 Dkc 512 rfl rfl).symm c) = ix2 k c := funext fun a => Fin.ext (by
    match a with
    | ⟨0, _⟩ => exact lhsKc0 _ _
    | ⟨1, _⟩ => exact (Dkc.lhsIdx_val_of_single rfl _ _).trans hk)
  have er : Dkc.rhsIdx (ix2 k i) ((contrEquiv1 Dkc 512 rfl rfl).symm c) = ix2 c i := funext fun a => Fin.ext (by
    match a with
    | ⟨0, _⟩ => exact (Dkc.rhsIdx_val_of_single rfl _ _).trans hk
    | ⟨1, _⟩ => exact rhsKc1 _ _)
  rw [el, er]

theorem lhsKn0 (j : S64x512.Idx) (q : Dkn.contr.Idx) : (Dkn.lhsIdx j q 0).val = (j 0).val := by
  unfold DotDims.lhsIdx
  rw [dif_neg (show ¬(0 : Fin S64x1024.rank) ∈ Dkn.lhsBatch by decide), dif_pos (show (0 : Fin S64x1024.rank) ∈ Dkn.lhsNonContracting by decide)]
  rfl

theorem rhsKn0 (j : S64x512.Idx) (q : Dkn.contr.Idx) : (Dkn.rhsIdx j q 0).val = (j 1).val := by
  unfold DotDims.rhsIdx
  rw [dif_neg (show ¬(0 : Fin S512x1024.rank) ∈ Dkn.rhsBatch by decide), dif_pos (show (0 : Fin S512x1024.rank) ∈ Dkn.rhsNonContracting by decide)]
  rfl

/-- Entry (k, c) of `L · Rᵀ` into a zero accumulator: the sum over the 1024 columns. -/
theorem mm_kn (L : FVec Ideal S64x1024 .bf16) (R : FVec Ideal S512x1024 .bf16) (k : Fin 64) (c : Fin 512) :
    matmul Dkn none L R (constant (F := Ideal) S64x512 .f32 0x00000000#32) (ix2 k c) = ∑ i : Fin 1024, L (ix2 k i) * R (ix2 c i) := by
  refine (Ideal.matmul_constant_zero_apply Dkn none L R (ix2 k c)).trans ?_
  rw [← Equiv.sum_comp (contrEquiv1 Dkn 1024 rfl rfl).symm]
  refine Finset.sum_congr rfl fun i _ => ?_
  have hk := contrEquiv1_symm_val Dkn 1024 rfl rfl i
  have el : Dkn.lhsIdx (ix2 k c) ((contrEquiv1 Dkn 1024 rfl rfl).symm i) = ix2 k i := funext fun a => Fin.ext (by
    match a with
    | ⟨0, _⟩ => exact lhsKn0 _ _
    | ⟨1, _⟩ => exact (Dkn.lhsIdx_val_of_single rfl _ _).trans hk)
  have er : Dkn.rhsIdx (ix2 k c) ((contrEquiv1 Dkn 1024 rfl rfl).symm i) = ix2 c i := funext fun a => Fin.ext (by
    match a with
    | ⟨0, _⟩ => exact rhsKn0 _ _
    | ⟨1, _⟩ => exact (Dkn.rhsIdx_val_of_single rfl _ _).trans hk)
  rw [el, er]

/-! ## Layout steps the tile uses -/

/-- A [64, 1] column repeated along 1024 columns reads its row's one entry. -/
theorem bcol (cv : FVec Ideal S64x1 .f32) (h : S64x1.Broadcasts S64x1024) (k : Fin 64) (i : Fin 1024) :
    broadcastTo S64x1024 cv h (ix2 k i) = cv (ix2 k (0 : Fin 1)) := by
  refine broadcastTo_apply cv h (ix2 k i) (ix2 k (0 : Fin 1)) fun ax => ?_
  match ax with
  | ⟨0, _⟩ => exact (show k.val = if (64 : ℕ) = 1 then 0 else k.val from rfl)
  | ⟨1, _⟩ => exact (show (0 : ℕ) = if (1 : ℕ) = 1 then 0 else i.val from rfl)

/-- A length-64 vector viewed as a [64, 1] column reads the same entries. -/
theorem col_of_vec (v : FVec Ideal S64 .f32) (h : S64.ShapeCasts S64x1) (k : Fin 64) (u : Fin 1) :
    shapeCast S64x1 v h (ix2 k u) = v (ix1 k) :=
  shapeCast_apply v h _ _ (by
    have hu : u.val = 0 := by omega
    rw [Shape.rowMajor_val_one, Shape.rowMajor_val_two]
    show k.val = k.val * 1 + u.val
    rw [hu, Nat.mul_one, Nat.add_zero])

/-! ## The softmax over the 64 nodes, column by column -/

/-- The largest entry of column `i`, folded from `−∞`. -/
def rowmax (l : FVec Ideal S64x1024 .f32) (i : Fin 1024) : EReal :=
  (Finset.univ : Finset (Fin 64)).fold max (Ideal.ofBits .f32 0xFF800000#32) (fun k' => l (ix2 k' i))

theorem lift0 (i : Fin 1024) (k' : Fin 64) : reduces_S64x1024_S1024.lift (ix1 i) k' = ix2 k' i :=
  funext fun a => Fin.ext (by match a with | ⟨0, _⟩ => rfl | ⟨1, _⟩ => rfl)

theorem lift1 (k : Fin 64) (i : Fin 1024) : reduces_S64x1024_S64.lift (ix1 k) i = ix2 k i :=
  funext fun a => Fin.ext (by match a with | ⟨0, _⟩ => rfl | ⟨1, _⟩ => rfl)

/-- The column maxima, repeated down the 64 rows. -/
def rmaxv (l : FVec Ideal S64x1024 .f32) : FVec Ideal S64x1024 .f32 :=
  broadcastTo S64x1024 (shapeCast S1x1024 (multiReduction .maximumf [0] S1024 l 0xFF800000#32 reduces_S64x1024_S1024 (.inl rfl) rfl)
    shapeCasts_S1024_S1x1024) broadcasts_S1x1024_S64x1024

def expv (l : FVec Ideal S64x1024 .f32) : FVec Ideal S64x1024 .f32 := exp (subf l (rmaxv l))

/-- The column sums of the exponentials, repeated down the 64 rows. -/
def rsumv (l : FVec Ideal S64x1024 .f32) : FVec Ideal S64x1024 .f32 :=
  broadcastTo S64x1024 (shapeCast S1x1024 (multiReduction .add [0] S1024 (expv l) 0x00000000#32 reduces_S64x1024_S1024 (.inl rfl) rfl)
    shapeCasts_S1024_S1x1024) broadcasts_S1x1024_S64x1024

def smx (l : FVec Ideal S64x1024 .f32) : FVec Ideal S64x1024 .f32 := divf (expv l) (rsumv l)

theorem rmaxv_apply (l : FVec Ideal S64x1024 .f32) (k : Fin 64) (i : Fin 1024) : rmaxv l (ix2 k i) = rowmax l i := by
  refine (broadcastTo_1b_ab_apply _ broadcasts_S1x1024_S64x1024 k i).trans ?_
  refine (shapeCast_a_1a_apply _ shapeCasts_S1024_S1x1024 (0 : Fin 1) i).trans ?_
  refine (Ideal.multiReduction_maximumf_single l 0xFF800000#32 reduces_S64x1024_S1024 (.inl rfl) rfl (ix1 i)).trans ?_
  exact Finset.fold_congr fun k' _ => congrArg l (lift0 i k')

theorem expv_apply (l : FVec Ideal S64x1024 .f32) (k : Fin 64) (i : Fin 1024) :
    expv l (ix2 k i) = Ideal.exp (l (ix2 k i) - rowmax l i) := by
  show Ideal.exp (l (ix2 k i) - rmaxv l (ix2 k i)) = _
  rw [rmaxv_apply]

theorem rsumv_apply (l : FVec Ideal S64x1024 .f32) (k : Fin 64) (i : Fin 1024) :
    rsumv l (ix2 k i) = ∑ k' : Fin 64, Ideal.exp (l (ix2 k' i) - rowmax l i) := by
  refine (broadcastTo_1b_ab_apply _ broadcasts_S1x1024_S64x1024 k i).trans ?_
  refine (shapeCast_a_1a_apply _ shapeCasts_S1024_S1x1024 (0 : Fin 1) i).trans ?_
  refine (Ideal.multiReduction_add_single (expv l) 0x00000000#32 reduces_S64x1024_S1024 (.inl rfl) rfl (ix1 i)).trans ?_
  exact Finset.sum_congr rfl fun k' _ => (congrArg (expv l) (lift0 i k')).trans (expv_apply l k' i)

theorem smx_apply (l : FVec Ideal S64x1024 .f32) (k : Fin 64) (i : Fin 1024) :
    smx l (ix2 k i) = Ideal.div (Ideal.exp (l (ix2 k i) - rowmax l i)) (∑ k' : Fin 64, Ideal.exp (l (ix2 k' i) - rowmax l i)) := by
  show Ideal.div (expv l (ix2 k i)) (rsumv l (ix2 k i)) = _
  rw [expv_apply, rsumv_apply]

/-! ## The logits of a tile -/

def lgt (w a : FVec Ideal S64x512 .bf16) (xsq xb : FVec Ideal S512x1024 .bf16) (cv : FVec Ideal S64x1 .f32) : FVec Ideal S64x1024 .f32 :=
  mulf (broadcast S64x1024 (Scalar.ofBits (F := Ideal) .f32 0xBF000000#32))
    (addf (subf (matmul Dkc none w xsq (constant (F := Ideal) S64x1024 .f32 0x00000000#32))
        (mulf (broadcast S64x1024 (Scalar.ofBits (F := Ideal) .f32 0x40000000#32))
          (matmul Dkc none a xb (constant (F := Ideal) S64x1024 .f32 0x00000000#32))))
      (broadcastTo S64x1024 cv broadcasts_S64x1_S64x1024))

theorem lgt_apply (w a : FVec Ideal S64x512 .bf16) (xsq xb : FVec Ideal S512x1024 .bf16) (cv : FVec Ideal S64x1 .f32) (k : Fin 64) (i : Fin 1024) :
    lgt w a xsq xb cv (ix2 k i)
      = Ideal.ofBits .f32 0xBF000000#32 * ((∑ c : Fin 512, w (ix2 k c) * xsq (ix2 c i))
          - Ideal.ofBits .f32 0x40000000#32 * (∑ c : Fin 512, a (ix2 k c) * xb (ix2 c i)) + cv (ix2 k (0 : Fin 1))) := by
  show Ideal.ofBits .f32 0xBF000000#32 * ((matmul Dkc none w xsq (constant (F := Ideal) S64x1024 .f32 0x00000000#32) (ix2 k i))
      - Ideal.ofBits .f32 0x40000000#32 * (matmul Dkc none a xb (constant (F := Ideal) S64x1024 .f32 0x00000000#32) (ix2 k i))
      + broadcastTo S64x1024 cv broadcasts_S64x1_S64x1024 (ix2 k i)) = _
  rw [mm_kc, mm_kc, bcol]

/-! ## The payloads -/

theorem pay5_apply (x0 : Vec Ideal S1x512x1024 .f32) (c : Fin 512) (i : Fin 1024) :
    k0_pay5 (F := Ideal) x0 (ix2 c i) = x0 (ix3 (0 : Fin 1) c i) :=
  shapeCast_1ab_ab_apply x0 shapeCasts_S1x512x1024_S512x1024 c i

theorem pay6_apply (x0 : Vec Ideal S1x512x1024 .f32) (c : Fin 512) (i : Fin 1024) :
    k0_pay6 (F := Ideal) x0 (ix2 c i) = x0 (ix3 (0 : Fin 1) c i) := pay5_apply x0 c i

/-- The tile's soft assignments are the softmax of its logits. -/
theorem pay7_eq (x0 : Vec Ideal S1x512x1024 .f32) (x1 x2 : Vec Ideal S64x512 .f32) (x3 : Vec Ideal S64x1 .f32) :
    k0_pay7 (F := Ideal) x0 x1 x2 x3
      = smx (lgt (truncf .bf16 (shapeCast S64x512 x1 shapeCasts_S64x512_S64x512) bitsLt_bf16_f32)
          (truncf .bf16 (shapeCast S64x512 x2 shapeCasts_S64x512_S64x512) bitsLt_bf16_f32)
          (truncf .bf16 (mulf (k0_pay5 x0) (k0_pay5 x0)) bitsLt_bf16_f32) (k0_pay6 x0)
          (shapeCast S64x1 x3 shapeCasts_S64x1_S64x1)) := rfl

/-- Entry (k, i) of the tile's soft assignments: the softmax of column `i`'s logits at node `k`. -/
theorem pay7_apply (x0 : Vec Ideal S1x512x1024 .f32) (x1 x2 : Vec Ideal S64x512 .f32) (x3 : Vec Ideal S64x1 .f32) (k : Fin 64) (i : Fin 1024) :
    k0_pay7 (F := Ideal) x0 x1 x2 x3 (ix2 k i)
      = softcol (fun c => x0 (ix3 (0 : Fin 1) c i)) x1 x2 (fun k' => x3 (ix2 k' (0 : Fin 1))) k := by
  have hl : ∀ k' : Fin 64, lgt (truncf .bf16 (shapeCast S64x512 x1 shapeCasts_S64x512_S64x512) bitsLt_bf16_f32)
      (truncf .bf16 (shapeCast S64x512 x2 shapeCasts_S64x512_S64x512) bitsLt_bf16_f32)
      (truncf .bf16 (mulf (k0_pay5 (F := Ideal) x0) (k0_pay5 x0)) bitsLt_bf16_f32) (k0_pay6 x0)
      (shapeCast S64x1 x3 shapeCasts_S64x1_S64x1) (ix2 k' i)
      = logit (fun c => x0 (ix3 (0 : Fin 1) c i)) x1 x2 (fun k' => x3 (ix2 k' (0 : Fin 1))) k' := fun k' => by
    rw [lgt_apply, shapeCast_self, shapeCast_self, shapeCast_self]
    unfold logit
    refine congrArg (fun t => Ideal.ofBits .f32 0xBF000000#32 * t) ?_
    refine congrArg₂ (fun s t => s - Ideal.ofBits .f32 0x40000000#32 * t + x3 (ix2 k' (0 : Fin 1))) ?_ ?_
    · exact Finset.sum_congr rfl fun c _ => by
        show x1 (ix2 k' c) * (k0_pay5 (F := Ideal) x0 (ix2 c i) * k0_pay5 (F := Ideal) x0 (ix2 c i)) = _
        rw [pay5_apply]
    · exact Finset.sum_congr rfl fun c _ => by
        show x2 (ix2 k' c) * k0_pay6 (F := Ideal) x0 (ix2 c i) = _
        rw [pay6_apply]
  rw [pay7_eq, smx_apply]
  unfold softcol colmax rowmax
  simp only [hl]

theorem pay8_apply (x0 : Vec Ideal S1x512x1024 .f32) (x1 x2 : Vec Ideal S64x512 .f32) (x3 : Vec Ideal S64x1 .f32) (u : Fin 1) (k : Fin 64) (i : Fin 1024) :
    k0_pay8 (F := Ideal) x0 x1 x2 x3 (ix3 u k i) = k0_pay7 (F := Ideal) x0 x1 x2 x3 (ix2 k i) :=
  shapeCast_ab_1ab_apply (k0_pay7 (F := Ideal) x0 x1 x2 x3) shapeCasts_S64x1024_S1x64x1024 u k i

theorem pay1_apply (u : Fin 1) (k : Fin 64) (u' : Fin 1) : k0_pay1 (F := Ideal) (ix3 u k u') = 0 := by
  refine (shapeCast_ab_1ab_apply (broadcast S64x1 (Scalar.ofBits (F := Ideal) .f32 0x00000000#32)) shapeCasts_S64x1_S1x64x1 u k u').trans ?_
  exact Ideal.ofBits_zero_f32

theorem pay2_apply (u : Fin 1) (k : Fin 64) (c : Fin 512) : k0_pay2 (F := Ideal) (ix3 u k c) = 0 := by
  refine (shapeCast_ab_1ab_apply (broadcast S64x512 (Scalar.ofBits (F := Ideal) .f32 0x00000000#32)) shapeCasts_S64x512_S1x64x512 u k c).trans ?_
  exact Ideal.ofBits_zero_f32

/-- The weights' running total: the previous total plus the tile's soft assignments summed over its 1024 columns. -/
theorem pay3_apply (v30 : FVec Ideal S64x1024 .f32) (v37 : Vec Ideal S1x64x1 .f32) (u : Fin 1) (k : Fin 64) (u' : Fin 1) :
    k0_pay3 (F := Ideal) v30 v37 (ix3 u k u') = v37 (ix3 (0 : Fin 1) k u') + ∑ i : Fin 1024, v30 (ix2 k i) := by
  refine (shapeCast_ab_1ab_apply
    (addf (shapeCast S64x1 v37 shapeCasts_S1x64x1_S64x1)
      (shapeCast S64x1 (multiReduction .add [1] S64 v30 0x00000000#32 reduces_S64x1024_S64 (.inl rfl) rfl) shapeCasts_S64_S64x1))
    shapeCasts_S64x1_S1x64x1 u k u').trans ?_
  refine congrArg₂ (· + ·) (shapeCast_1ab_ab_apply v37 shapeCasts_S1x64x1_S64x1 k u') ?_
  refine (col_of_vec (multiReduction .add [1] S64 v30 0x00000000#32 reduces_S64x1024_S64 (.inl rfl) rfl) shapeCasts_S64_S64x1 k u').trans ?_
  refine (Ideal.multiReduction_add_single v30 0x00000000#32 reduces_S64x1024_S64 (.inl rfl) rfl (ix1 k)).trans ?_
  exact Finset.sum_congr rfl fun i _ => congrArg v30 (lift1 k i)

/-- The weighted sums' running total: the previous total plus, at (k, c), the sum over the tile's columns of the soft
    assignment times the tile's entry. -/
theorem pay4_apply (v2 : FVec Ideal S512x1024 .bf16) (v30 : FVec Ideal S64x1024 .f32) (v47 : Vec Ideal S1x64x512 .f32) (u : Fin 1) (k : Fin 64) (c : Fin 512) :
    k0_pay4 (F := Ideal) v2 v30 v47 (ix3 u k c) = v47 (ix3 (0 : Fin 1) k c) + ∑ i : Fin 1024, v30 (ix2 k i) * v2 (ix2 c i) := by
  refine (shapeCast_ab_1ab_apply
    (addf (shapeCast S64x512 v47 shapeCasts_S1x64x512_S64x512)
      (matmul Dkn none (truncf .bf16 v30 bitsLt_bf16_f32) v2 (constant (F := Ideal) S64x512 .f32 0x00000000#32)))
    shapeCasts_S64x512_S1x64x512 u k c).trans ?_
  refine congrArg₂ (· + ·) (shapeCast_1ab_ab_apply v47 shapeCasts_S1x64x512_S64x512 k c) ?_
  exact mm_kn (truncf .bf16 v30 bitsLt_bf16_f32) v2 k c

end Cert.KernelIdeal.Pay

end
-- ==== Proof.KernelVal.lean ====
/-
  What the three output arrays of the idealized kernel hold after the whole grid has run.

  The grid has 64 points; point `t` works on image `t / 4` and on its columns `1024 · (t % 4) … 1024 · (t % 4) + 1023`.
  Reading each staged block back through the printed index maps (decided once over the 64 points):
    • the soft-assignment tile a point leaves is the softmax of its columns' logits (`sa`), and every point writes its
      tile back, so the [16, 64, 4096] array ends as `sa` everywhere;
    • the two running totals after point `t` are the sums of the first `1024 · (t % 4 + 1)` columns' terms of image
      `t / 4` — by induction on the point: an image's first point starts from zero, a later point adds its 1024 terms
      to what the point before left —, and they are written back after an image's last point, when the partial sum is
      the sum over all 4096 columns.
-/
import proofs.«132507_j7902739825285_1_alg».proof.Proof.KernelPieces
import proofs.«132507_j7902739825285_1_alg».proof.Proof.KernelPay
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Pool Cert.KernelIdeal.Pay Cert.KernelIdeal.Pieces

variable (m : (ℓ : Loc nD τ sig) → Buf (Elt Ideal) ℓ) (c : Dev nD)

/-! ## The mathematics over the arrays the region finds -/

/-- Column `n` of image `b`: its 512 channel values. -/
def colOf (b : Fin 16) (n : Fin 4096) : Fin 512 → EReal := fun c' => V m c main_v13 (ix3 b c' n)
/-- The per-node constants, read off their [64, 1] column. -/
def cstK : Fin 64 → EReal := fun k => V m c main_v12 (ix2 k (0 : Fin 1))
/-- The soft assignment of column `n` of image `b` to node `k`. -/
def sa (b : Fin 16) (k : Fin 64) (n : Fin 4096) : EReal :=
  softcol (colOf m c b n) (V m c main_v8) (V m c main_v9) (cstK m c) k
/-- The term of the weighted sum at (b, k, c'): soft assignment times the column's channel. -/
def sax (b : Fin 16) (k : Fin 64) (c' : Fin 512) (n : Fin 4096) : EReal := sa m c b k n * V m c main_v13 (ix3 b c' n)

/-! ## The printed index maps, decided over the grid -/

theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val / 4 ∧ win0_4.index t (1 : Fin 3) = 0 ∧ win0_4.index t (2 : Fin 3) = t.val % 4 :=
  (by decide +kernel : ∀ t : Fin grid0.N, _)
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)

/-! ## The input blocks a point reads -/

/-- The image tile at point `t`: entry (c', i) is channel c' of column `1024 · (t % 4) + i` of image `t / 4`. -/
theorem blk0 (t : Fin cfg0.N) (b : Fin 16) (hb : b.val = t.val / 4) (c' : Fin 512) (i : Fin 1024) (n : Fin 4096)
    (hn : n.val = 1024 * (t.val % 4) + i.val) :
    (iblk m c 0 t : Vec Ideal S1x512x1024 .f32) (ix3 (0 : Fin 1) c' i) = V m c main_v13 (ix3 b c' n) := by
  obtain ⟨e0, e1, e2⟩ := idx0 t
  unfold iblk
  rw [View.read_apply]
  show V m c main_v13 _ = _
  refine congrArg (V m c main_v13) (funext fun a => Fin.ext ?_)
  match a with
  | ⟨0, _⟩ => show win0_0.index t (0 : Fin 3) * 1 + 1 * 0 = b.val; omega
  | ⟨1, _⟩ => show win0_0.index t (1 : Fin 3) * 512 + 1 * c'.val = c'.val; omega
  | ⟨2, _⟩ => show win0_0.index t (2 : Fin 3) * 1024 + 1 * i.val = n.val; omega

/-- The three small operands are staged whole at every point. -/
theorem blk1 (t : Fin cfg0.N) : (iblk m c 1 t : Vec Ideal S64x512 .f32) = V m c main_v8 := by
  obtain ⟨e0, e1⟩ := idx1 t
  funext j
  unfold iblk
  rw [View.read_apply]
  show V m c main_v8 _ = V m c main_v8 j
  refine congrArg (V m c main_v8) (funext fun a => Fin.ext ?_)
  match a with
  | ⟨0, _⟩ => show win0_1.index t (0 : Fin 2) * 64 + 1 * (j 0).val = (j 0).val; omega
  | ⟨1, _⟩ => show win0_1.index t (1 : Fin 2) * 512 + 1 * (j 1).val = (j 1).val; omega

theorem blk2 (t : Fin cfg0.N) : (iblk m c 2 t : Vec Ideal S64x512 .f32) = V m c main_v9 := by
  obtain ⟨e0, e1⟩ := idx2 t
  funext j
  unfold iblk
  rw [View.read_apply]
  show V m c main_v9 _ = V m c main_v9 j
  refine congrArg (V m c main_v9) (funext fun a => Fin.ext ?_)
  match a with
  | ⟨0, _⟩ => show win0_2.index t (0 : Fin 2) * 64 + 1 * (j 0).val = (j 0).val; omega
  | ⟨1, _⟩ => show win0_2.index t (1 : Fin 2) * 512 + 1 * (j 1).val = (j 1).val; omega

theorem blk3 (t : Fin cfg0.N) : (iblk m c 3 t : Vec Ideal S64x1 .f32) = V m c main_v12 := by
  obtain ⟨e0, e1⟩ := idx3 t
  funext j
  unfold iblk
  rw [View.read_apply]
  show V m c main_v12 _ = V m c main_v12 j
  refine congrArg (V m c main_v12) (funext fun a => Fin.ext ?_)
  match a with
  | ⟨0, _⟩ => show win0_3.index t (0 : Fin 2) * 64 + 1 * (j 0).val = (j 0).val; omega
  | ⟨1, _⟩ => show win0_3.index t (1 : Fin 2) * 1 + 1 * (j 1).val = (j 1).val; omega

/-! ## One point's tile of soft assignments -/

def saT (t : Fin cfg0.N) : FVec Ideal S64x1024 .f32 :=
  k0_pay7 (F := Ideal) (iblk m c 0 t) (iblk m c 1 t) (iblk m c 2 t) (iblk m c 3 t)

theorem saT_apply (t : Fin cfg0.N) (b : Fin 16) (hb : b.val = t.val / 4) (k : Fin 64) (i : Fin 1024) (n : Fin 4096)
    (hn : n.val = 1024 * (t.val % 4) + i.val) : saT m c t (ix2 k i) = sa m c b k n := by
  unfold saT
  refine (pay7_apply (iblk m c 0 t) (iblk m c 1 t) (iblk m c 2 t) (iblk m c 3 t) k i).trans ?_
  unfold sa
  have h0 : (fun c' : Fin 512 => (iblk m c 0 t : Vec Ideal S1x512x1024 .f32) (ix3 (0 : Fin 1) c' i)) = colOf m c b n :=
    funext fun c' => blk0 m c t b hb c' i n hn
  have h3 : (fun k' : Fin 64 => (iblk m c 3 t : Vec Ideal S64x1 .f32) (ix2 k' (0 : Fin 1))) = cstK m c :=
    funext fun k' => congrFun (blk3 m c t) _
  exact (congrArg (fun f => softcol f (iblk m c 1 t : Vec Ideal S64x512 .f32) (iblk m c 2 t : Vec Ideal S64x512 .f32)
      (fun k' : Fin 64 => (iblk m c 3 t : Vec Ideal S64x1 .f32) (ix2 k' (0 : Fin 1))) k) h0).trans
    ((congrArg (fun f => softcol (colOf m c b n) (iblk m c 1 t : Vec Ideal S64x512 .f32) (iblk m c 2 t : Vec Ideal S64x512 .f32) f k) h3).trans
      ((congrArg (fun f => softcol (colOf m c b n) f (iblk m c 2 t : Vec Ideal S64x512 .f32) (cstK m c) k) (blk1 m c t)).trans
        (congrArg (fun f => softcol (colOf m c b n) (V m c main_v8) f (cstK m c) k) (blk2 m c t))))

/-! ## What the staging buffers hold after a point, as values -/

theorem outs_A (t : Fin cfg0.N) (h0 : t.val % 4 = 0) :
    outsAt0 m c t.val t.isLt = (k0_pay8 (F := Ideal) (iblk m c 0 t) (iblk m c 1 t) (iblk m c 2 t) (iblk m c 3 t),
      k0_pay3 (saT m c t) (k0_pay1 (F := Ideal)),
      k0_pay4 (k0_pay6 (F := Ideal) (iblk m c 0 t)) (saT m c t) (k0_pay2 (F := Ideal))) := by
  rw [outsAt0_A m c t h0]
  exact congrArg₂ Prod.mk (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t))
    (congrArg₂ Prod.mk (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t))
      (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)))

theorem outs_B (t : Fin cfg0.N) (h0 : ¬t.val % 4 = 0) :
    outsAt0 m c t.val t.isLt = (k0_pay8 (F := Ideal) (iblk m c 0 t) (iblk m c 1 t) (iblk m c 2 t) (iblk m c 3 t),
      k0_pay3 (saT m c t) (outsAt0 m c (t.val - 1) (Nat.lt_of_le_of_lt (Nat.sub_le _ _) t.isLt)).2.1,
      k0_pay4 (k0_pay6 (F := Ideal) (iblk m c 0 t)) (saT m c t) (outsAt0 m c (t.val - 1) (Nat.lt_of_le_of_lt (Nat.sub_le _ _) t.isLt)).2.2) := by
  rw [outsAt0_B m c t h0]
  exact congrArg₂ Prod.mk (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
      (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))

/-- The tile's terms of the weights' sum are terms `1024 · (t % 4) + i` of image `t / 4`'s sequence. -/
theorem tile_terms5 (t : Fin cfg0.N) (b : Fin 16) (hb : b.val = t.val / 4) (k : Fin 64) :
    ∑ i : Fin 1024, saT m c t (ix2 k i) = ∑ i : Fin 1024, seqOf (sa m c b k) (1024 * (t.val % 4) + i.val) := by
  have hN : t.val < 64 := lt_of_lt_of_eq t.isLt (show cfg0.N = 64 from N_0)
  refine Finset.sum_congr rfl fun i _ => ?_
  have hlt : 1024 * (t.val % 4) + i.val < 4096 := by have := i.isLt; omega
  exact (saT_apply m c t b hb k i ⟨_, hlt⟩ rfl).trans (seqOf_lt _ _ hlt).symm

theorem tile_terms6 (t : Fin cfg0.N) (b : Fin 16) (hb : b.val = t.val / 4) (k : Fin 64) (c' : Fin 512) :
    ∑ i : Fin 1024, saT m c t (ix2 k i) * k0_pay6 (F := Ideal) (iblk m c 0 t) (ix2 c' i)
      = ∑ i : Fin 1024, seqOf (sax m c b k c') (1024 * (t.val % 4) + i.val) := by
  have hN : t.val < 64 := lt_of_lt_of_eq t.isLt (show cfg0.N = 64 from N_0)
  refine Finset.sum_congr rfl fun i _ => ?_
  have hlt : 1024 * (t.val % 4) + i.val < 4096 := by have := i.isLt; omega
  refine Eq.trans ?_ (seqOf_lt _ _ hlt).symm
  unfold sax
  exact congrArg₂ (· * ·) (saT_apply m c t b hb k i ⟨_, hlt⟩ rfl)
    ((pay6_apply (iblk m c 0 t) c' i).trans (blk0 m c t b hb c' i ⟨_, hlt⟩ rfl))

/-! ## The running totals are partial sums -/

theorem inv5 : ∀ (n : ℕ) (hn : n < cfg0.N) (b : Fin 16) (hb : b.val = n / 4) (k : Fin 64) (u u' : Fin 1),
    (outsAt0 m c n hn).2.1 (ix3 u k u') = ∑ p ∈ Finset.range (1024 * (n % 4 + 1)), seqOf (sa m c b k) p := by
  intro n
  induction n with
  | zero =>
    intro hn b hb k u u'
    rw [outs_A m c ⟨0, hn⟩ rfl]
    refine (pay3_apply (saT m c ⟨0, hn⟩) (k0_pay1 (F := Ideal)) u k u').trans ?_
    exact part_zero (sa m c b k) _ _ (pay1_apply (0 : Fin 1) k u') (tile_terms5 m c ⟨0, hn⟩ b hb k)
  | succ n ih =>
    intro hn b hb k u u'
    by_cases h0 : (n + 1) % 4 = 0
    · rw [outs_A m c ⟨n + 1, hn⟩ h0, h0]
      refine (pay3_apply (saT m c ⟨n + 1, hn⟩) (k0_pay1 (F := Ideal)) u k u').trans ?_
      refine part_zero (sa m c b k) _ _ (pay1_apply (0 : Fin 1) k u') ?_
      refine (tile_terms5 m c ⟨n + 1, hn⟩ b hb k).trans ?_
      show ∑ i : Fin 1024, seqOf (sa m c b k) (1024 * ((n + 1) % 4) + i.val) = _
      rw [h0]
    · rw [outs_B m c ⟨n + 1, hn⟩ h0]
      refine (pay3_apply (saT m c ⟨n + 1, hn⟩) _ u k u').trans ?_
      have hj : (n + 1) % 4 = n % 4 + 1 := by omega
      rw [hj]
      refine part_succ (sa m c b k) (n % 4) _ _ (ih (Nat.lt_of_succ_lt hn) b (by omega) k (0 : Fin 1) u') ?_
      refine (tile_terms5 m c ⟨n + 1, hn⟩ b hb k).trans ?_
      show ∑ i : Fin 1024, seqOf (sa m c b k) (1024 * ((n + 1) % 4) + i.val) = _
      rw [hj]

theorem inv6 : ∀ (n : ℕ) (hn : n < cfg0.N) (b : Fin 16) (hb : b.val = n / 4) (k : Fin 64) (c' : Fin 512) (u : Fin 1),
    (outsAt0 m c n hn).2.2 (ix3 u k c') = ∑ p ∈ Finset.range (1024 * (n % 4 + 1)), seqOf (sax m c b k c') p := by
  intro n
  induction n with
  | zero =>
    intro hn b hb k c' u
    rw [outs_A m c ⟨0, hn⟩ rfl]
    refine (pay4_apply (k0_pay6 (F := Ideal) (iblk m c 0 ⟨0, hn⟩)) (saT m c ⟨0, hn⟩) (k0_pay2 (F := Ideal)) u k c').trans ?_
    exact part_zero (sax m c b k c') _ _ (pay2_apply (0 : Fin 1) k c') (tile_terms6 m c ⟨0, hn⟩ b hb k c')
  | succ n ih =>
    intro hn b hb k c' u
    by_cases h0 : (n + 1) % 4 = 0
    · rw [outs_A m c ⟨n + 1, hn⟩ h0, h0]
      refine (pay4_apply (k0_pay6 (F := Ideal) (iblk m c 0 ⟨n + 1, hn⟩)) (saT m c ⟨n + 1, hn⟩) (k0_pay2 (F := Ideal)) u k c').trans ?_
      refine part_zero (sax m c b k c') _ _ (pay2_apply (0 : Fin 1) k c') ?_
      refine (tile_terms6 m c ⟨n + 1, hn⟩ b hb k c').trans ?_
      show ∑ i : Fin 1024, seqOf (sax m c b k c') (1024 * ((n + 1) % 4) + i.val) = _
      rw [h0]
    · rw [outs_B m c ⟨n + 1, hn⟩ h0]
      refine (pay4_apply (k0_pay6 (F := Ideal) (iblk m c 0 ⟨n + 1, hn⟩)) (saT m c ⟨n + 1, hn⟩) _ u k c').trans ?_
      have hj : (n + 1) % 4 = n % 4 + 1 := by omega
      rw [hj]
      refine part_succ (sax m c b k c') (n % 4) _ _ (ih (Nat.lt_of_succ_lt hn) b (by omega) k c' (0 : Fin 1)) ?_
      refine (tile_terms6 m c ⟨n + 1, hn⟩ b hb k c').trans ?_
      show ∑ i : Fin 1024, seqOf (sax m c b k c') (1024 * ((n + 1) % 4) + i.val) = _
      rw [hj]

/-! ## The soft-assignment array -/

/-- What the [16, 64, 4096] array ends holding. -/
def G4 : S16x64x4096.Idx → EReal := fun j => sa m c (j 0) (j 1) (j 2)

theorem out4_at (t : Fin cfg0.N) (y : S1x64x1024.Idx) (b : Fin 16) (hb : b.val = t.val / 4) (k : Fin 64) (hk : k.val = (y 1).val)
    (n : Fin 4096) (hn : n.val = 1024 * (t.val % 4) + (y 2).val) :
    (outsAt0 m c t.val t.isLt).1 y = sa m c b k n := by
  obtain ⟨u, k', i, rfl⟩ : ∃ (u : Fin 1) (k' : Fin 64) (i : Fin 1024), y = ix3 u k' i := ⟨y 0, y 1, y 2, eq_ix3 y⟩
  obtain rfl : k = k' := Fin.ext hk
  have h8 : (outsAt0 m c t.val t.isLt).1 = k0_pay8 (F := Ideal) (iblk m c 0 t) (iblk m c 1 t) (iblk m c 2 t) (iblk m c 3 t) := by
    by_cases h0 : t.val % 4 = 0
    · rw [outs_A m c t h0]
    · rw [outs_B m c t h0]
  rw [h8]
  refine (pay8_apply (iblk m c 0 t) (iblk m c 1 t) (iblk m c 2 t) (iblk m c 3 t) u k i).trans ?_
  exact saT_apply m c t b hb k i n hn

theorem flushed4_eq (t : Fin cfg0.N) :
    (dats m 0 c).flushed 4 t = ((cfg0.win 4).blk t).view.read (Elt Ideal) (G4 m c) := by
  obtain ⟨e0, e1, e2⟩ := idx4 t
  show (cfg0.win 4).cut (grid0.coords t) ((dats m 0 c).after 4 t) = _
  rw [after0_4]
  funext y
  show (outsAt0 m c t.val t.isLt).1 y = G4 m c (((cfg0.win 4).blk t).view.emb y)
  have hy0 : (y 0).val < 1 := (y 0).isLt
  exact out4_at m c t y _ (show win0_4.index t (0 : Fin 3) * 1 + 1 * (y 0).val = t.val / 4 by omega) _
    (show win0_4.index t (1 : Fin 3) * 64 + 1 * (y 1).val = (y 1).val by omega) _
    (show win0_4.index t (2 : Fin 3) * 1024 + 1 * (y 2).val = 1024 * (t.val % 4) + (y 2).val by omega)

theorem cover4 (i : S16x64x4096.Idx) : ∃ t : Fin cfg0.N, (cfg0.win 4).flush t = true ∧ i ∈ ((cfg0.win 4).blk t).view.set := by
  have h0 : (i 0).val < 16 := (i 0).isLt
  have h1 : (i 1).val < 64 := (i 1).isLt
  have h2 : (i 2).val < 4096 := (i 2).isLt
  obtain ⟨t, ht⟩ : ∃ t : Fin cfg0.N, t.val = 4 * (i 0).val + (i 2).val / 1024 :=
    ⟨⟨4 * (i 0).val + (i 2).val / 1024, lt_of_lt_of_eq (by omega) (show (64 : ℕ) = cfg0.N from N_0.symm)⟩, rfl⟩
  obtain ⟨e0, e1, e2⟩ := idx4 t
  refine ⟨t, flush0_4 t, ?_⟩
  show i ∈ ((View.whole main_v14_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 1024 ≤ (i 2).val ∧ (i 2).val < win0_4.index t (2 : Fin 3) * 1024 + 1024; omega

theorem final4 : (dats m 0 c).arrAt 4 cfg0.N = G4 m c :=
  (dats m 0 c).arrAt_eq_of_cover 4 (G4 m c) (fun t _ => flushed4_eq m c t) (cover4)

/-! ## The weights' array -/

def G5 : S16x64x1.Idx → EReal := fun j => ∑ n : Fin 4096, sa m c (j 0) (j 1) n

theorem out5_at (t : Fin cfg0.N) (h3 : t.val % 4 = 3) (y : S1x64x1.Idx) (b : Fin 16) (hb : b.val = t.val / 4) (k : Fin 64) (hk : k.val = (y 1).val) :
    (outsAt0 m c t.val t.isLt).2.1 y = ∑ n : Fin 4096, sa m c b k n := by
  obtain ⟨u, k', u', rfl⟩ : ∃ (u : Fin 1) (k' : Fin 64) (u' : Fin 1), y = ix3 u k' u' := ⟨y 0, y 1, y 2, eq_ix3 y⟩
  obtain rfl : k = k' := Fin.ext hk
  refine (inv5 m c t.val t.isLt b hb k u u').trans ?_
  rw [h3]
  exact part_full _

theorem flushed5_eq (t : Fin cfg0.N) (hf : (cfg0.win 5).flush t = true) :
    (dats m 0 c).flushed 5 t = ((cfg0.win 5).blk t).view.read (Elt Ideal) (G5 m c) := by
  have h3 : t.val % 4 = 3 := (flush0_5 t).mp hf
  obtain ⟨e0, e1, e2⟩ := idx5 t
  show (cfg0.win 5).cut (grid0.coords t) ((dats m 0 c).after 5 t) = _
  rw [after0_5]
  funext y
  show (outsAt0 m c t.val t.isLt).2.1 y = G5 m c (((cfg0.win 5).blk t).view.emb y)
  have hy0 : (y 0).val < 1 := (y 0).isLt
  exact out5_at m c t h3 y _ (show win0_5.index t (0 : Fin 3) * 1 + 1 * (y 0).val = t.val / 4 by omega) _
    (show win0_5.index t (1 : Fin 3) * 64 + 1 * (y 1).val = (y 1).val by omega)

theorem cover5 (i : S16x64x1.Idx) : ∃ t : Fin cfg0.N, (cfg0.win 5).flush t = true ∧ i ∈ ((cfg0.win 5).blk t).view.set := by
  have h0 : (i 0).val < 16 := (i 0).isLt
  have h1 : (i 1).val < 64 := (i 1).isLt
  have h2 : (i 2).val < 1 := (i 2).isLt
  obtain ⟨t, ht⟩ : ∃ t : Fin cfg0.N, t.val = 4 * (i 0).val + 3 :=
    ⟨⟨4 * (i 0).val + 3, lt_of_lt_of_eq (by omega) (show (64 : ℕ) = cfg0.N from N_0.symm)⟩, rfl⟩
  obtain ⟨e0, e1, e2⟩ := idx5 t
  refine ⟨t, (flush0_5 t).mpr (by omega), ?_⟩
  show i ∈ ((View.whole main_v14_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1 ≤ (i 2).val ∧ (i 2).val < win0_5.index t (2 : Fin 3) * 1 + 1; omega

theorem final5 : (dats m 0 c).arrAt 5 cfg0.N = G5 m c :=
  (dats m 0 c).arrAt_eq_of_cover 5 (G5 m c) (flushed5_eq m c) (cover5)

/-! ## The weighted sums' array -/

def G6 : S16x64x512.Idx → EReal := fun j => ∑ n : Fin 4096, sax m c (j 0) (j 1) (j 2) n

theorem out6_at (t : Fin cfg0.N) (h3 : t.val % 4 = 3) (y : S1x64x512.Idx) (b : Fin 16) (hb : b.val = t.val / 4) (k : Fin 64) (hk : k.val = (y 1).val)
    (c' : Fin 512) (hc : c'.val = (y 2).val) :
    (outsAt0 m c t.val t.isLt).2.2 y = ∑ n : Fin 4096, sax m c b k c' n := by
  obtain ⟨u, k', c'', rfl⟩ : ∃ (u : Fin 1) (k' : Fin 64) (c'' : Fin 512), y = ix3 u k' c'' := ⟨y 0, y 1, y 2, eq_ix3 y⟩
  obtain rfl : k = k' := Fin.ext hk
  obtain rfl : c' = c'' := Fin.ext hc
  refine (inv6 m c t.val t.isLt b hb k c' u).trans ?_
  rw [h3]
  exact part_full _

theorem flushed6_eq (t : Fin cfg0.N) (hf : (cfg0.win 6).flush t = true) :
    (dats m 0 c).flushed 6 t = ((cfg0.win 6).blk t).view.read (Elt Ideal) (G6 m c) := by
  have h3 : t.val % 4 = 3 := (flush0_6 t).mp hf
  obtain ⟨e0, e1, e2⟩ := idx6 t
  show (cfg0.win 6).cut (grid0.coords t) ((dats m 0 c).after 6 t) = _
  rw [after0_6]
  funext y
  show (outsAt0 m c t.val t.isLt).2.2 y = G6 m c (((cfg0.win 6).blk t).view.emb y)
  have hy0 : (y 0).val < 1 := (y 0).isLt
  exact out6_at m c t h3 y _ (show win0_6.index t (0 : Fin 3) * 1 + 1 * (y 0).val = t.val / 4 by omega) _
    (show win0_6.index t (1 : Fin 3) * 64 + 1 * (y 1).val = (y 1).val by omega) _
    (show win0_6.index t (2 : Fin 3) * 512 + 1 * (y 2).val = (y 2).val by omega)

theorem cover6 (i : S16x64x512.Idx) : ∃ t : Fin cfg0.N, (cfg0.win 6).flush t = true ∧ i ∈ ((cfg0.win 6).blk t).view.set := by
  have h0 : (i 0).val < 16 := (i 0).isLt
  have h1 : (i 1).val < 64 := (i 1).isLt
  have h2 : (i 2).val < 512 := (i 2).isLt
  obtain ⟨t, ht⟩ : ∃ t : Fin cfg0.N, t.val = 4 * (i 0).val + 3 :=
    ⟨⟨4 * (i 0).val + 3, lt_of_lt_of_eq (by omega) (show (64 : ℕ) = cfg0.N from N_0.symm)⟩, rfl⟩
  obtain ⟨e0, e1, e2⟩ := idx6 t
  refine ⟨t, (flush0_6 t).mpr (by omega), ?_⟩
  show i ∈ ((View.whole main_v14_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 512 ≤ (i 2).val ∧ (i 2).val < win0_6.index t (2 : Fin 3) * 512 + 512; omega

theorem final6 : (dats m 0 c).arrAt 6 cfg0.N = G6 m c :=
  (dats m 0 c).arrAt_eq_of_cover 6 (G6 m c) (flushed6_eq m c) (cover6)

end Cert.KernelIdeal.Val

end
-- ==== Proof.Tail.lean ====
/-
  What both programs do with the two aggregates, stated once.

  From the per-node weights `w[b,k]` (kept as a [16,64,1] array) and the weighted sums `wx[b,k,c]`, with the anchors and
  the widths `σ` ([64,512] each):
    nodes = ((wx − w · anchor) / σ) / (w + ε),                       ε the f32 nearest 1e-9;
    each node's 512-vector is divided by max(‖·‖₂, δ),                δ the f32 nearest 1e-12;
    each image's 64·512 entries, flattened, are divided by max(‖·‖₂, δ) again, and re-read as [16,512,64].
  The norms are square roots of sums of squares taken from a zero initial value. Both programs spell these steps with
  the same operations in the same order, so the two ends are compared by comparing what goes IN: this file never needs to
  be opened by the proofs that use it.
-/
import Idealize.ShloMosaic.PureOps.Ideal
import Idealize.ShloMosaic.PureOps.Vector
import Idealize.ShloMosaic.Lib.Pipeline.Value

noncomputable section

namespace Cert.Pool

open Idealize.ShloMosaic

abbrev Ts : Shape := ⟨0, ![]⟩
abbrev Tkc : Shape := ⟨2, ![64, 512]⟩
abbrev T1kc : Shape := ⟨3, ![1, 64, 512]⟩
abbrev Tbk1 : Shape := ⟨3, ![16, 64, 1]⟩
abbrev Tbkc : Shape := ⟨3, ![16, 64, 512]⟩
abbrev Tbk : Shape := ⟨2, ![16, 64]⟩
abbrev Tbf : Shape := ⟨2, ![16, 32768]⟩
abbrev Tb : Shape := ⟨1, ![16]⟩
abbrev Tb1 : Shape := ⟨2, ![16, 1]⟩
abbrev Tbck : Shape := ⟨3, ![16, 512, 64]⟩

theorem hTs : 0 < Ts.numel := by decide
theorem bc_kc_1kc : Tkc.BroadcastsInDim T1kc (![1, 2] : Fin 2 → Fin T1kc.rank) := by decide
theorem bc_bk1_bkc : Tbk1.BroadcastsInDim Tbkc (![0, 1, 2] : Fin 3 → Fin Tbkc.rank) := by decide
theorem bc_1kc_bkc : T1kc.BroadcastsInDim Tbkc (![0, 1, 2] : Fin 3 → Fin Tbkc.rank) := by decide
theorem bc_s_bk1 : Ts.BroadcastsInDim Tbk1 (![] : Fin 0 → Fin Tbk1.rank) := by decide
theorem red_bkc_bk : Tbkc.ReducesTo [2] Tbk := by decide
theorem bc_bk_bk1 : Tbk.BroadcastsInDim Tbk1 (![0, 1] : Fin 2 → Fin Tbk1.rank) := by decide
theorem sc_bkc_bf : Tbkc.ShapeCasts Tbf := by decide
theorem red_bf_b : Tbf.ReducesTo [1] Tb := by decide
theorem bc_b_b1 : Tb.BroadcastsInDim Tb1 (![0] : Fin 1 → Fin Tb1.rank) := by decide
theorem bc_s_b1 : Ts.BroadcastsInDim Tb1 (![] : Fin 0 → Fin Tb1.rank) := by decide
theorem bc_b1_bf : Tb1.BroadcastsInDim Tbf (![0, 1] : Fin 2 → Fin Tbf.rank) := by decide
theorem sc_bf_bck : Tbf.ShapeCasts Tbck := by decide

/-- `((wx − w · anchor) / σ) / (w + ε)`. -/
def nodes (w : FVec Ideal Tbk1 .f32) (wx : FVec Ideal Tbkc .f32) (anchor sigma : FVec Ideal Tkc .f32) : FVec Ideal Tbkc .f32 :=
  Host.divf
    (Host.divf
      (subf wx (mulf (broadcastInDim Tbkc ![0, 1, 2] bc_bk1_bkc w)
        (broadcastInDim Tbkc ![0, 1, 2] bc_1kc_bkc (broadcastInDim T1kc ![1, 2] bc_kc_1kc anchor))))
      (broadcastInDim Tbkc ![0, 1, 2] bc_1kc_bkc (broadcastInDim T1kc ![1, 2] bc_kc_1kc sigma)))
    (broadcastInDim Tbkc ![0, 1, 2] bc_bk1_bkc
      (addf w (broadcastInDim Tbk1 ![] bc_s_bk1 (constant (F := Ideal) Ts .f32 0x3089705F#32))))

/-- Each node's vector over its clamped Euclidean norm. -/
def unitRows (v : FVec Ideal Tbkc .f32) : FVec Ideal Tbkc .f32 :=
  Host.divf v
    (broadcastInDim Tbkc ![0, 1, 2] bc_bk1_bkc
      (maximumf
        (Host.sqrt (broadcastInDim Tbk1 ![0, 1] bc_bk_bk1
          (Host.reduceAdd (mulf v v) (constant (F := Ideal) Ts .f32 0x00000000#32) red_bkc_bk hTs)))
        (broadcastInDim Tbk1 ![] bc_s_bk1 (constant (F := Ideal) Ts .f32 0x2B8CBCCC#32))))

/-- One image's flattened entries over their clamped Euclidean norm. -/
def unitFlat (u : FVec Ideal Tbf .f32) : FVec Ideal Tbf .f32 :=
  Host.divf u
    (broadcastInDim Tbf ![0, 1] bc_b1_bf
      (maximumf
        (Host.sqrt (broadcastInDim Tb1 ![0] bc_b_b1
          (Host.reduceAdd (mulf u u) (constant (F := Ideal) Ts .f32 0x00000000#32) red_bf_b hTs)))
        (broadcastInDim Tb1 ![] bc_s_b1 (constant (F := Ideal) Ts .f32 0x2B8CBCCC#32))))

/-- The whole finalization: nodes, per-node normalization, per-image normalization, the last re-reading. -/
def tail (w : FVec Ideal Tbk1 .f32) (wx : FVec Ideal Tbkc .f32) (anchor sigma : FVec Ideal Tkc .f32) : FVec Ideal Tbck .f32 :=
  shapeCast Tbck (unitFlat (shapeCast Tbf (unitRows (nodes w wx anchor sigma)) sc_bkc_bf)) sc_bf_bck

end Cert.Pool

end
-- ==== Proof.KernelTail.lean ====
/-
  The idealized kernel's host lines after the region, read as one function of what they read.

  After the region the program reads four arrays — the weights' array and the weighted sums' array the region wrote,
  the anchors it was launched with, and the widths `σ` computed before the region — and finalizes them
  (`Cert.Pool.tail`: nodes, per-node normalization, per-image normalization). Its first result is that function of
  those four arrays; the lines write no array the region staged and the region writes neither the anchors nor `σ`.
-/
import proofs.«132507_j7902739825285_1_alg».proof.Proof.Gen.KernelIdeal.Frame
import proofs.«132507_j7902739825285_1_alg».proof.Proof.Tail
import Idealize.ShloMosaic.Lib.Pipeline.Value
import Idealize.ShloMosaic.Lib.StableHlo.Run
import Idealize.ShloMosaic.Lib.Tactic

set_option maxRecDepth 16384

noncomputable section

namespace Cert.KernelIdeal.TailK

open Idealize.ShloMosaic Idealize.ShloMosaic.TcCoe Idealize.SL.Sem Idealize.ShloMosaic.StableHlo
open Idealize.ShloMosaic.Pipeline (Dat)
open Cert.KernelIdeal Cert.KernelIdeal.Gen Cert.Pool

variable (m : (ℓ : Loc nD τ sig) → Buf (Elt Ideal) ℓ) (c : Dev nD)

/-- After the region the weights' buffer holds the array the region left. -/
theorem read5 : Pipeline.withArrays (cfgs 0).spec c (V0 m c) (fun w => (dats m 0 c).arrAt w (cfgs 0).N) (Proc.devRef .tc main_v14_1)
    = (dats m 0 c).arrAt 5 cfg0.N :=
  Pipeline.withArrays_arr spec0 launch0.win.arr_inj c _ _ 5

/-- After the region the weighted sums' buffer holds the array the region left. -/
theorem read6 : Pipeline.withArrays (cfgs 0).spec c (V0 m c) (fun w => (dats m 0 c).arrAt w (cfgs 0).N) (Proc.devRef .tc main_v14_2)
    = (dats m 0 c).arrAt 6 cfg0.N :=
  Pipeline.withArrays_arr spec0 launch0.win.arr_inj c _ _ 6

/-- The anchors are no array of the region: they are as launched. -/
theorem readA : Pipeline.withArrays (cfgs 0).spec c (V0 m c) (fun w => (dats m 0 c).arrAt w (cfgs 0).N) (Proc.devRef .tc main_arg1)
    = m ((c : Thread nD τ).loc main_arg1) :=
  (Pipeline.withArrays_of_ne _ c (V0 m c) _ main_arg1 (by exact (by decide : ∀ w, Pipeline.arrRef spec0 w ≠ main_arg1))).trans
    (V_main_arg1 m c)

/-- The widths are no array of the region: they are as the lines before it left them. -/
theorem readS : Pipeline.withArrays (cfgs 0).spec c (V0 m c) (fun w => (dats m 0 c).arrAt w (cfgs 0).N) (Proc.devRef .tc main_v5)
    = V m c main_v5 :=
  Pipeline.withArrays_of_ne _ c (V0 m c) _ main_v5 (by exact (by decide : ∀ w, Pipeline.arrRef spec0 w ≠ main_v5))

set_option maxHeartbeats 8000000 in
/-- The first result, after the lines that follow the region. -/
theorem tail_run : Pipeline.afterTail₀ cfgs (dats m) 0 (V0 m) [hostOps1, hostOps1_1, hostOps1_2, hostOps1_3, hostOps1_4] c main_v38
    = tail ((dats m 0 c).arrAt 5 cfg0.N) ((dats m 0 c).arrAt 6 cfg0.N) (m ((c : Thread nD τ).loc main_arg1)) (V m c main_v5) := by
  unfold Pipeline.afterTail₀
  simp only [hostOps1, hostOps1_1, hostOps1_2, hostOps1_3, hostOps1_4, List.flatten_cons, List.flatten_nil, List.append_nil,
    List.cons_append, List.nil_append]
  after_results_simp
  simp only [read5 m c, read6 m c, readA m c, readS m c]
  rfl

end Cert.KernelIdeal.TailK

end
-- ==== Proof.RefSide.lean ====
/-
  The reference program, read as the mathematics of Spec and Tail.

  The reference works on whole arrays. Read at one image b, one spatial position n and one node k:
  * its logits array at [b, n, k] is -½ · (Σ_c x²·w − 2 · Σ_c x·a + cst k), where x is the column of image b at
    position n (the image array re-read as [16, 512, 4096]), w = 1/σ², a = anchor/σ² and cst k = Σ_c anchor²/σ²;
    up to the order of the factors under the two sums this is `logit` of that column;
  * it transposes the logits to [b, k, n], folds their maximum over k from −∞, takes the maximum with −∞ once more
    (which changes nothing), subtracts, exponentiates, and divides by 0 + Σ_k' exp (l k' − max): `softcol` of the column;
  * the per-node weight is 0 + Σ_n of the soft assignment, kept with a unit last axis, and the weighted sum is
    Σ_n soft[b, k, n] · x[b, c, n] (the second operand of that contraction is the transposed image array);
  * from these two aggregates, the anchors and the widths it finishes with exactly the operations of `tail`, in the same
    order: the two sides of `tail_eq` are the same expression, one spelled stage by stage and one spelled at once.
-/
import proofs.«132507_j7902739825285_1_alg».proof.Proof.RefRead
import proofs.«132507_j7902739825285_1_alg».proof.Proof.Spec
import proofs.«132507_j7902739825285_1_alg».proof.Proof.Tail

noncomputable section

namespace Cert.RefSide

open Idealize.ShloMosaic Idealize.ShloMosaic.ValueIdx Cert.ReferenceIdeal Cert.ReferenceIdeal.Gen Cert.ReferenceIdeal.ReadP Cert.Pool

/-- Two indices of rank three (two, one) are equal when their coordinates are; at literal axes each coordinate computes. -/
local macro "coords3" : tactic =>
  `(tactic| exact funext fun a => Fin.ext (by match a with | ⟨0, _⟩ => rfl | ⟨1, _⟩ => rfl | ⟨2, _⟩ => rfl))
local macro "coords2" : tactic =>
  `(tactic| exact funext fun a => Fin.ext (by match a with | ⟨0, _⟩ => rfl | ⟨1, _⟩ => rfl))
local macro "coords1" : tactic =>
  `(tactic| exact funext fun a => Fin.ext (by match a with | ⟨0, _⟩ => rfl))

variable (x : (⟨S16x512x64x64, .f32⟩ : BufTy).Contents (Elt Ideal)) (y z : (⟨S64x512, .f32⟩ : BufTy).Contents (Elt Ideal))

/-- The column of image b at spatial position n: its 512 channel values. -/
def xcol (b : Fin 16) (n : Fin 4096) : Fin 512 → EReal := fun c => val_main_v6 (F := Ideal) x (ix3 b c n)

/-- The per-node constants Σ_c anchor² / σ². -/
def cstOf : Fin 64 → EReal := fun k => val_main_v13 (F := Ideal) y z (ix1 k)

/-! ## The soft assignment -/

/-- Σ_c x² · w at [b, n, k], with the factors in the order `logit` has them. -/
theorem quad_eq (b : Fin 16) (n : Fin 4096) (k : Fin 64) :
    val_main_v15 (F := Ideal) x z (ix3 b n k)
      = ∑ c : Fin 512, val_main_v10 (F := Ideal) z (ix2 k c) * (xcol x b n c * xcol x b n c) := by
  rw [val_main_v15_apply]
  refine Finset.sum_congr rfl fun c _ => ?_
  have hl : idx_main_v7 (lidx_main_v15 (ix3 b n k) c) = ix3 b c n := by coords3
  have hr : ridx_main_v15 (ix3 b n k) c = ix2 k c := by coords2
  rw [val_main_v14_apply, val_main_v7_apply, Ideal.mulf_def, hl, hr, mul_comm]
  rfl

/-- Σ_c x · a at [b, n, k], with the factors in the order `logit` has them. -/
theorem lin_eq (b : Fin 16) (n : Fin 4096) (k : Fin 64) :
    val_main_v16 (F := Ideal) x y z (ix3 b n k)
      = ∑ c : Fin 512, val_main_v11 (F := Ideal) y z (ix2 k c) * xcol x b n c := by
  rw [val_main_v16_apply]
  refine Finset.sum_congr rfl fun c _ => ?_
  have hl : idx_main_v7 (lidx_main_v16 (ix3 b n k) c) = ix3 b c n := by coords3
  have hr : ridx_main_v16 (ix3 b n k) c = ix2 k c := by coords2
  rw [val_main_v7_apply, hl, hr, mul_comm]
  rfl

/-- The logits array at [b, n, k] is the logit of node k at the column. -/
theorem v24_eq (b : Fin 16) (n : Fin 4096) (k : Fin 64) :
    val_main_v24 (F := Ideal) x y z (ix3 b n k)
      = logit (xcol x b n) (val_main_v10 (F := Ideal) z) (val_main_v11 (F := Ideal) y z) (cstOf y z) k := by
  have hc : idx_main_v20 (idx_main_v21 (ix3 b n k)) = ix1 k := by coords1
  rw [val_main_v24_apply, val_main_v23_apply, val_main_cst_4_apply, val_main_v22_apply, val_main_v19_apply,
    val_main_v18_apply, val_main_v17_apply, val_main_cst_3_apply, val_main_v21_apply, val_main_v20_apply, hc,
    quad_eq, lin_eq]
  rfl

/-- The transposed logits at [b, k, n]. -/
theorem v25_eq (b : Fin 16) (k : Fin 64) (n : Fin 4096) :
    val_main_v25 (F := Ideal) x y z (ix3 b k n)
      = logit (xcol x b n) (val_main_v10 (F := Ideal) z) (val_main_v11 (F := Ideal) y z) (cstOf y z) k := by
  have ht : idx_main_v25 (ix3 b k n) = ix3 b n k := by coords3
  rw [val_main_v25_apply, ht, v24_eq]

/-- The maximum over the nodes, folded from −∞, is the largest logit of the column. -/
theorem v26_eq (b : Fin 16) (n : Fin 4096) :
    val_main_v26 (F := Ideal) x y z (ix2 b n)
      = colmax (xcol x b n) (val_main_v10 (F := Ideal) z) (val_main_v11 (F := Ideal) y z) (cstOf y z) := by
  have h : S16x64x4096.Reduces [1] S16x4096 := by decide
  have hpt : ∀ k : Fin 64, val_main_v25 (F := Ideal) x y z (h.lift (ix2 b n) k)
      = logit (xcol x b n) (val_main_v10 (F := Ideal) z) (val_main_v11 (F := Ideal) y z) (cstOf y z) k := fun k => by
    have hk : h.lift (ix2 b n) k = ix3 b k n := by coords3
    rw [hk, v25_eq]
  have hf : (val_main_v25 (F := Ideal) x y z ∘ h.lift (ix2 b n))
      = logit (xcol x b n) (val_main_v10 (F := Ideal) z) (val_main_v11 (F := Ideal) y z) (cstOf y z) :=
    funext hpt
  unfold val_main_v26
  rw [Host.reduce_eq_fold_single (FloatOps.maximumf (F := Ideal) (φ := .f32)) _ _ reducesTo_S16x64x4096_S16x4096_d1 h h_S_, hf]
  rfl

/-- Taking the maximum with −∞ once more changes nothing. -/
theorem v28_eq (b : Fin 16) (n : Fin 4096) :
    val_main_v28 (F := Ideal) x y z (ix2 b n)
      = colmax (xcol x b n) (val_main_v10 (F := Ideal) z) (val_main_v11 (F := Ideal) y z) (cstOf y z) := by
  rw [val_main_v28_apply, val_main_v27_apply, val_main_cst_6_apply, v26_eq]
  exact max_colmax _ _ _ _

/-- exp (l − max) at [b, k, n]. -/
theorem v32_eq (b : Fin 16) (k : Fin 64) (n : Fin 4096) :
    val_main_v32 (F := Ideal) x y z (ix3 b k n)
      = Ideal.exp (logit (xcol x b n) (val_main_v10 (F := Ideal) z) (val_main_v11 (F := Ideal) y z) (cstOf y z) k
          - colmax (xcol x b n) (val_main_v10 (F := Ideal) z) (val_main_v11 (F := Ideal) y z) (cstOf y z)) := by
  have hm : idx_main_v29 (idx_main_v30 (ix3 b k n)) = ix2 b n := by coords2
  rw [val_main_v32_apply, val_main_v31_apply, val_main_v30_apply, val_main_v29_apply, hm, v25_eq, v28_eq]
  rfl

/-- The normalizer 0 + Σ_k' exp (l k' − max) at [b, n]. -/
theorem v33_eq (b : Fin 16) (n : Fin 4096) :
    val_main_v33 (F := Ideal) x y z (ix2 b n)
      = ∑ k' : Fin 64, Ideal.exp (logit (xcol x b n) (val_main_v10 (F := Ideal) z) (val_main_v11 (F := Ideal) y z) (cstOf y z) k'
          - colmax (xcol x b n) (val_main_v10 (F := Ideal) z) (val_main_v11 (F := Ideal) y z) (cstOf y z)) := by
  rw [val_main_v33_apply, val_main_cst_7_apply, Ideal.ofBits_def, Ideal.ofBits_zero_f32, zero_add]
  refine Finset.sum_congr rfl fun k' _ => ?_
  have hk : idx_main_v33 (ix2 b n) k' = ix3 b k' n := by coords3
  rw [hk, v32_eq]

/-- The soft assignment of the reference at [b, k, n] is the softmax over the nodes of the logits of the column. -/
theorem sa_eq (b : Fin 16) (k : Fin 64) (n : Fin 4096) :
    val_main_v36 (F := Ideal) x y z (ix3 b k n)
      = softcol (xcol x b n) (val_main_v10 (F := Ideal) z) (val_main_v11 (F := Ideal) y z) (cstOf y z) k := by
  have hs : idx_main_v34 (idx_main_v35 (ix3 b k n)) = ix2 b n := by coords2
  rw [val_main_v36_apply, val_main_v35_apply, val_main_v34_apply, hs, v32_eq, v33_eq]
  rfl

/-! ## The two aggregates -/

/-- The per-node weight: the soft assignment summed over the positions, from zero. -/
theorem wsum_eq (b : Fin 16) (k : Fin 64) (u : Fin 1) :
    val_main_v39 (F := Ideal) x y z (ix3 b k u) = ∑ n : Fin 4096, val_main_v36 (F := Ideal) x y z (ix3 b k n) := by
  rw [val_main_v39_apply, val_main_v37_apply, val_main_cst_8_apply, Ideal.ofBits_def, Ideal.ofBits_zero_f32, zero_add]
  refine Finset.sum_congr rfl fun n _ => ?_
  have hn : idx_main_v37 (idx_main_v39 (ix3 b k u)) n = ix3 b k n := by coords3
  rw [hn]

/-- The weighted sum: the soft assignment times the values of the image, summed over the positions. -/
theorem wx_eq (b : Fin 16) (k : Fin 64) (c : Fin 512) :
    val_main_v38 (F := Ideal) x y z (ix3 b k c)
      = ∑ n : Fin 4096, val_main_v36 (F := Ideal) x y z (ix3 b k n) * val_main_v6 (F := Ideal) x (ix3 b c n) := by
  rw [val_main_v38_apply]
  refine Finset.sum_congr rfl fun n _ => ?_
  have hl : lidx_main_v38 (ix3 b k c) n = ix3 b k n := by coords3
  have hr : idx_main_v7 (ridx_main_v38 (ix3 b k c) n) = ix3 b c n := by coords3
  rw [val_main_v7_apply, hl, hr]

/-! ## The finalization -/

/-- ((wx − w · anchor) / σ) / (w + ε): the reference broadcasts the summed weights twice, both times the same way. -/
theorem nodes_eq :
    val_main_v52 (F := Ideal) x y z
      = nodes (val_main_v39 (F := Ideal) x y z) (val_main_v38 (F := Ideal) x y z) y (val_main_v5 (F := Ideal) z) := by
  have h48 : val_main_v48 (F := Ideal) x y z = val_main_v39 (F := Ideal) x y z := rfl
  unfold val_main_v52 val_main_v51 val_main_v50 val_main_v49 val_main_cst_9 val_main_v47 val_main_v46 val_main_v45
    val_main_v44 val_main_v43 val_main_v42 val_main_v41 val_main_v40 nodes
  rw [h48]

/-- The vector of each node over its clamped Euclidean norm. -/
theorem unitRows_eq :
    val_main_v57 (F := Ideal) x y z = unitRows (val_main_v52 (F := Ideal) x y z) := by
  unfold val_main_v57 val_main_v56 val_main_v55 val_main_v54 val_main_cst_10 val_main_v53 val_main_call0_v2
    val_main_call0_v1 val_main_call0_v0 val_main_call0_cst unitRows
  generalize val_main_v52 (F := Ideal) x y z = v
  rfl

/-- The flattened entries of each image over their clamped Euclidean norm. -/
theorem unitFlat_eq :
    val_main_v63 (F := Ideal) x y z = unitFlat (val_main_v58 (F := Ideal) x y z) := by
  unfold val_main_v63 val_main_v62 val_main_v61 val_main_v60 val_main_cst_11 val_main_v59 val_main_call1_v2
    val_main_call1_v1 val_main_call1_v0 val_main_call1_cst unitFlat
  generalize val_main_v58 (F := Ideal) x y z = u
  rfl

/-- The result of the reference is `tail` of its two aggregates, the anchors and the widths. -/
theorem tail_eq :
    val_main_v64 (F := Ideal) x y z
      = tail (val_main_v39 (F := Ideal) x y z) (val_main_v38 (F := Ideal) x y z) y (val_main_v5 (F := Ideal) z) := by
  have h58 : val_main_v58 (F := Ideal) x y z
      = shapeCast Tbf (unitRows (nodes (val_main_v39 (F := Ideal) x y z) (val_main_v38 (F := Ideal) x y z) y
          (val_main_v5 (F := Ideal) z))) sc_bkc_bf := by
    unfold val_main_v58
    rw [unitRows_eq, nodes_eq]
  unfold val_main_v64 tail
  rw [unitFlat_eq, h58]

end Cert.RefSide

end
-- ==== Proof.Bridge.lean ====
/-
  The two idealized programs meet.

  Before the region both programs compute, from the same arguments, the same widths, inverse variances, scaled
  anchors and per-node constants, and read the images with their two spatial axes as one: the arrays the kernel's
  region finds ARE the reference's first stages. So the kernel's soft-assignment array is the reference's softmax
  entry by entry, its two aggregates — sums of 4096 terms reached 1024 at a time — are the reference's sums, and the
  finalization, being the same function of the same four arrays on both sides, gives the same first result.
-/
import proofs.«132507_j7902739825285_1_alg».proof.Proof.KernelVal
import proofs.«132507_j7902739825285_1_alg».proof.Proof.KernelTail
import proofs.«132507_j7902739825285_1_alg».proof.Proof.RefSide

set_option maxRecDepth 16384

noncomputable section

namespace Cert.Bridge

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Val Cert.KernelIdeal.Pay Cert.Pool
open Cert.ReferenceIdeal.ReadP (val_main_v5 val_main_v6 val_main_v10 val_main_v11 val_main_v13 val_main_v36 val_main_v38 val_main_v39 val_main_v64)

variable (m : (ℓ : Loc nD τ sig) → Buf (Elt Ideal) ℓ) (c : Dev nD)

/-! ## What the region finds is what the reference computes first -/

set_option maxHeartbeats 2000000 in
/-- The inverse variances. -/
theorem pv8 : V m c main_v8 = val_main_v10 (F := Ideal) (m ((c : Thread nD τ).loc main_arg2)) := by
  show StableHlo.after hostOps0 (fun b => m (c, b)) (Proc.devRef .tc main_v8) = _
  after_results
  rfl

set_option maxHeartbeats 2000000 in
/-- The scaled anchors. -/
theorem pv9 : V m c main_v9 = val_main_v11 (F := Ideal) (m ((c : Thread nD τ).loc main_arg1)) (m ((c : Thread nD τ).loc main_arg2)) := by
  show StableHlo.after hostOps0 (fun b => m (c, b)) (Proc.devRef .tc main_v9) = _
  after_results
  rfl

set_option maxHeartbeats 2000000 in
/-- The widths. -/
theorem pv5 : V m c main_v5 = val_main_v5 (F := Ideal) (m ((c : Thread nD τ).loc main_arg2)) := by
  show StableHlo.after hostOps0 (fun b => m (c, b)) (Proc.devRef .tc main_v5) = _
  after_results
  rfl

set_option maxHeartbeats 2000000 in
/-- The images with their two spatial axes read as one. -/
theorem pv13 : V m c main_v13 = val_main_v6 (F := Ideal) (m ((c : Thread nD τ).loc main_arg0)) := by
  show StableHlo.after hostOps0 (fun b => m (c, b)) (Proc.devRef .tc main_v13) = _
  after_results
  rfl

set_option maxHeartbeats 2000000 in
/-- The per-node constants, as a [64, 1] column. -/
theorem pv12 : V m c main_v12 = shapeCast S64x1 (val_main_v13 (F := Ideal) (m ((c : Thread nD τ).loc main_arg1)) (m ((c : Thread nD τ).loc main_arg2))) shapeCasts_S64_S64x1 := by
  show StableHlo.after hostOps0 (fun b => m (c, b)) (Proc.devRef .tc main_v12) = _
  after_results
  rfl

theorem colOf_eq (b : Fin 16) (n : Fin 4096) : colOf m c b n = Cert.RefSide.xcol (m ((c : Thread nD τ).loc main_arg0)) b n :=
  funext fun c' => congrFun (pv13 m c) _

theorem cstK_eq : cstK m c = Cert.RefSide.cstOf (m ((c : Thread nD τ).loc main_arg1)) (m ((c : Thread nD τ).loc main_arg2)) :=
  funext fun k => (congrFun (pv12 m c) _).trans (col_of_vec _ shapeCasts_S64_S64x1 k (0 : Fin 1))

/-! ## The three arrays the region leaves are the reference's -/

/-- Entry by entry the kernel's soft assignment is the reference's. -/
theorem sa_ref (b : Fin 16) (k : Fin 64) (n : Fin 4096) :
    sa m c b k n = val_main_v36 (F := Ideal) (m ((c : Thread nD τ).loc main_arg0)) (m ((c : Thread nD τ).loc main_arg1)) (m ((c : Thread nD τ).loc main_arg2)) (ix3 b k n) := by
  rw [Cert.RefSide.sa_eq]
  unfold sa
  rw [colOf_eq, cstK_eq, pv8, pv9]

theorem G4_ref : G4 m c = val_main_v36 (F := Ideal) (m ((c : Thread nD τ).loc main_arg0)) (m ((c : Thread nD τ).loc main_arg1)) (m ((c : Thread nD τ).loc main_arg2)) := by
  funext j
  obtain ⟨b, k, n, rfl⟩ : ∃ (b : Fin 16) (k : Fin 64) (n : Fin 4096), j = ix3 b k n := ⟨j 0, j 1, j 2, eq_ix3 j⟩
  exact sa_ref m c b k n

theorem G5_ref : G5 m c = val_main_v39 (F := Ideal) (m ((c : Thread nD τ).loc main_arg0)) (m ((c : Thread nD τ).loc main_arg1)) (m ((c : Thread nD τ).loc main_arg2)) := by
  funext j
  obtain ⟨b, k, u, rfl⟩ : ∃ (b : Fin 16) (k : Fin 64) (u : Fin 1), j = ix3 b k u := ⟨j 0, j 1, j 2, eq_ix3 j⟩
  rw [Cert.RefSide.wsum_eq]
  exact Finset.sum_congr rfl fun n _ => sa_ref m c b k n

theorem G6_ref : G6 m c = val_main_v38 (F := Ideal) (m ((c : Thread nD τ).loc main_arg0)) (m ((c : Thread nD τ).loc main_arg1)) (m ((c : Thread nD τ).loc main_arg2)) := by
  funext j
  obtain ⟨b, k, c', rfl⟩ : ∃ (b : Fin 16) (k : Fin 64) (c' : Fin 512), j = ix3 b k c' := ⟨j 0, j 1, j 2, eq_ix3 j⟩
  rw [Cert.RefSide.wx_eq]
  refine Finset.sum_congr rfl fun n _ => ?_
  show sa m c b k n * V m c main_v13 (ix3 b c' n) = _
  rw [sa_ref, pv13]

/-- The soft-assignment result. -/
theorem out1_eq : (dats m 0 c).arrAt 4 cfg0.N = val_main_v36 (F := Ideal) (m ((c : Thread nD τ).loc main_arg0)) (m ((c : Thread nD τ).loc main_arg1)) (m ((c : Thread nD τ).loc main_arg2)) :=
  (final4 m c).trans (G4_ref m c)

/-- The finalized result: the same finalization of the same two aggregates, anchors and widths. -/
theorem out0_eq : Pipeline.afterTail₀ cfgs (dats m) 0 (V0 m) [hostOps1, hostOps1_1, hostOps1_2, hostOps1_3, hostOps1_4] c main_v38 = val_main_v64 (F := Ideal) (m ((c : Thread nD τ).loc main_arg0)) (m ((c : Thread nD τ).loc main_arg1)) (m ((c : Thread nD τ).loc main_arg2)) := by
  rw [Cert.KernelIdeal.TailK.tail_run, final5, final6, G5_ref, G6_ref, pv5, Cert.RefSide.tail_eq]

/-! ## The kernel's run, read -/

/-- Every weakly fair execution of the idealized kernel terminates with its two results at the reference's stages of
    its own arguments, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v38) = val_main_v64 (F := Ideal) (m ((c : Thread nD τ).loc main_arg0)) (m ((c : Thread nD τ).loc main_arg1)) (m ((c : Thread nD τ).loc main_arg2))
      ∧ r.2.mem ((c.tc : Thread nD τ).loc main_v14_0) = val_main_v36 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v38 (Pipeline.mem_restRefs_of main_v38 (by decide) (by decide))).trans (out0_eq m c),
      ((h c).1 4).trans (out1_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Bridge

end
-- ==== Proof.lean ====
/-
  Soft assignment of image columns to 64 nodes, and the normalized node descriptors: a tiled kernel against its
  whole-array reference, equal over the extended reals.

  Both programs take images x[16, 512, 64·64], anchors[64, 512] and raw widths[64, 512]. With σ the logistic of the raw
  widths, w = 1/σ², a = anchor/σ², cst_k = Σ_c anchor·a, column n of image b gets the logits
  l_k = -½ · (Σ_c w_kc · x_c² − 2 · Σ_c a_kc · x_c + cst_k) and the soft assignment softmax_k(l). The second result is
  that soft assignment; the first is a finalization (differences to the anchors over σ, over the summed weights plus
  ε, normalized per node and then per image) of the two aggregates Σ_n soft[b,k,n] and Σ_n soft[b,k,n] · x[b,c,n].

  The kernel computes a [64, 1024] tile of soft assignments per grid point — 16 images × 4 tiles — with the two matrix
  products as products of narrowed operands (a change of format is the identity on the extended reals), and keeps the
  two aggregates as running totals over an image's four tiles, zeroed at the first. The reference computes every
  column at once and sums all 4096 columns in one reduction. They agree because: the products under the channel sums
  commute; the maximum folded from −∞ is unchanged by one more maximum with −∞; a sum from a zero initial value is the
  sum; and four partial sums of 1024 terms added in turn to zero are the sum of the 4096 terms (addition of extended
  reals is associative and commutative — no finiteness is used, so the precondition is never opened). The
  finalization is the same expression of the same four arrays on both sides.

  The ideal pass rewrote nothing, so the idealization claim is trivial; the three frame claims are the two kernels'
  frame runs and the reference's run with its results dropped.
-/
import proofs.«132507_j7902739825285_1_alg».proof.Defs
import proofs.«132507_j7902739825285_1_alg».proof.Proof.Gen.Kernel
import proofs.«132507_j7902739825285_1_alg».proof.Proof.Gen.Kernel.Skeleton
import proofs.«132507_j7902739825285_1_alg».proof.Proof.Gen.Kernel.Launch
import proofs.«132507_j7902739825285_1_alg».proof.Proof.Gen.Kernel.Points
import proofs.«132507_j7902739825285_1_alg».proof.Proof.Gen.Kernel.Frame
import proofs.«132507_j7902739825285_1_alg».proof.Proof.Gen.KernelIdeal
import proofs.«132507_j7902739825285_1_alg».proof.Proof.Gen.KernelIdeal.Skeleton
import proofs.«132507_j7902739825285_1_alg».proof.Proof.Gen.KernelIdeal.Launch
import proofs.«132507_j7902739825285_1_alg».proof.Proof.Gen.KernelIdeal.Points
import proofs.«132507_j7902739825285_1_alg».proof.Proof.Gen.KernelIdeal.Frame
import proofs.«132507_j7902739825285_1_alg».proof.Proof.Gen.ReferenceIdeal
import proofs.«132507_j7902739825285_1_alg».proof.Proof.Gen.Pre_finite_inputs
import proofs.«132507_j7902739825285_1_alg».proof.Proof.RefRun
import proofs.«132507_j7902739825285_1_alg».proof.Proof.RefRead
import proofs.«132507_j7902739825285_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run with its two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.ValueP.run (F := Ideal) m ρ)

/-- Both idealized programs end with their results at the reference's stages of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.ReadP.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.Bridge.kernel_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v64_eq, (hagree c).1, (hagree c).2.1, (hagree c).2.2]
  · rw [Cert.ReferenceIdeal.ReadP.val_main_v36_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
